-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S256x256 : Shape := ⟨2, ![256, 256]⟩
abbrev S256 : Shape := ⟨1, ![256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S500000x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S500000x256 : Shape := ⟨2, ![500000, 256]⟩
abbrev S256x256 : Shape := ⟨2, ![256, 256]⟩
abbrev S256 : Shape := ⟨1, ![256]⟩
abbrev S256x768 : Shape := ⟨2, ![256, 768]⟩
abbrev S768 : Shape := ⟨1, ![768]⟩
abbrev S1x768 : Shape := ⟨2, ![1, 768]⟩
abbrev S2000x256 : Shape := ⟨2, ![2000, 256]⟩
abbrev S2000x768 : Shape := ⟨2, ![2000, 768]⟩
abbrev S2000x64 : Shape := ⟨2, ![2000, 64]⟩
abbrev S2000 : Shape := ⟨1, ![2000]⟩
abbrev S2000x1 : Shape := ⟨2, ![2000, 1]⟩
abbrev S2000x4 : Shape := ⟨2, ![2000, 4]⟩

abbrev nBuf : Space → Nat
  | .hbm => 11
  | .vmem => 6
  | .smem => 0
  | _ => 0

abbrev bufTy : (tb : Table) → Fin (tcTables nBuf tb) → BufTy
  | .hbm, ⟨0, _⟩ => ⟨S500000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x768, .f32⟩
  | .hbm, ⟨8, _⟩ => ⟨S768, .f32⟩
  | .hbm, ⟨9, _⟩ => ⟨S1x768, .f32⟩
  | .hbm, ⟨10, _⟩ => ⟨S500000x256, .f32⟩
  | .local _ .vmem, ⟨0, _⟩ => ⟨S2000x256, .f32⟩
  | .local _ .vmem, ⟨1, _⟩ => ⟨S2000x256, .f32⟩
  | .local _ .vmem, ⟨2, _⟩ => ⟨S256x768, .f32⟩
  | .local _ .vmem, ⟨3, _⟩ => ⟨S1x768, .f32⟩
  | .local _ .vmem, ⟨4, _⟩ => ⟨S2000x256, .f32⟩
  | .local _ .vmem, ⟨5, _⟩ => ⟨S2000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S256x256_S256x256_S256x256_S256x768_d1 : Shape.Concatenates [S256x256, S256x256, S256x256] S256x768 1
  concatenates_S256_S256_S256_S768_d0 : Shape.Concatenates [S256, S256, S256] S768 0
  shapeCasts_S768_S1x768 : S768.ShapeCasts S1x768
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  slices_S2000x768_o0_0_S2000x256 : S2000x768.Slices ![0, 0] S2000x256
  slices_S2000x768_o0_256_S2000x256 : S2000x768.Slices ![0, 256] S2000x256
  slices_S2000x768_o0_512_S2000x256 : S2000x768.Slices ![0, 512] S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  reduces_S2000x64_S2000 : S2000x64.Reduces [1] S2000
  shapeCasts_S2000_S2000x1 : S2000.ShapeCasts S2000x1
  concatenates_S2000x1_S2000x1_S2000x1_S2000x1_S2000x4_d1 : Shape.Concatenates [S2000x1, S2000x1, S2000x1, S2000x1] S2000x4 1
  reduces_S2000x4_S2000 : S2000x4.Reduces [1] S2000
  broadcasts_S2000x1_S2000x4 : S2000x1.Broadcasts S2000x4
  slices_S2000x4_o0_0_S2000x1 : S2000x4.Slices ![0, 0] S2000x1
  broadcasts_S2000x1_S2000x64 : S2000x1.Broadcasts S2000x64
  slices_S2000x4_o0_1_S2000x1 : S2000x4.Slices ![0, 1] S2000x1
  slices_S2000x4_o0_2_S2000x1 : S2000x4.Slices ![0, 2] S2000x1
  slices_S2000x4_o0_3_S2000x1 : S2000x4.Slices ![0, 3] S2000x1
  concatenates_S2000x64_S2000x64_S2000x64_S2000x64_S2000x256_d1 : Shape.Concatenates [S2000x64, S2000x64, S2000x64, S2000x64] S2000x256 1
  dot_S2000x256_S256x768_S2000x768_1_0_0_1_n_n_wf : DotDims.WF S2000x256 S256x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S500000x256.size a
  hwx0_3 : ∀ i : grid0.Coords, EltTy.bits .f32 = 32 ∨ (Rect.block (s := S500000x256) S2000x256.size (cc0_transform_3 i) (hinb0_3 i)).WholeWords (EltTy.packing .f32)

variable [Facts₀]

def dot_S2000x256_S256x768_S2000x768_1_0_0_1_n_n : DotDims S2000x256 S256x768 S2000x768 where
  lhsContracting := [1]
  rhsContracting := [0]
  lhsNonContracting := [0]
  rhsNonContracting := [1]
  lhsBatch := []
  rhsBatch := []
  wf := dot_S2000x256_S256x768_S2000x768_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x256 : Shape := ⟨2, ![500000, 256]⟩
abbrev S256x256 : Shape := ⟨2, ![256, 256]⟩
abbrev S256 : Shape := ⟨1, ![256]⟩
abbrev S1x256 : Shape := ⟨2, ![1, 256]⟩
abbrev S500000x4x64 : Shape := ⟨3, ![500000, 4, 64]⟩
abbrev S500000x4x4 : Shape := ⟨3, ![500000, 4, 4]⟩
abbrev S_ : Shape := ⟨0, ![]⟩
abbrev S500000x4 : Shape := ⟨2, ![500000, 4]⟩
abbrev S500000x4x1 : Shape := ⟨3, ![500000, 4, 1]⟩

abbrev nBuf : Space → Nat
  | .hbm => 42
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S500000x256, .f32⟩
  | .hbm, ⟨8, _⟩ => ⟨S1x256, .f32⟩
  | .hbm, ⟨9, _⟩ => ⟨S500000x256, .f32⟩
  | .hbm, ⟨10, _⟩ => ⟨S500000x256, .f32⟩
  | .hbm, ⟨11, _⟩ => ⟨S500000x4x64, .f32⟩
  | .hbm, ⟨12, _⟩ => ⟨S500000x256, .f32⟩
  | .hbm, ⟨13, _⟩ => ⟨S1x256, .f32⟩
  | .hbm, ⟨14, _⟩ => ⟨S500000x256, .f32⟩
  | .hbm, ⟨15, _⟩ => ⟨S500000x256, .f32⟩
  | .hbm, ⟨16, _⟩ => ⟨S500000x4x64, .f32⟩
  | .hbm, ⟨17, _⟩ => ⟨S500000x256, .f32⟩
  | .hbm, ⟨18, _⟩ => ⟨S1x256, .f32⟩
  | .hbm, ⟨19, _⟩ => ⟨S500000x256, .f32⟩
  | .hbm, ⟨20, _⟩ => ⟨S500000x256, .f32⟩
  | .hbm, ⟨21, _⟩ => ⟨S500000x4x64, .f32⟩
  | .hbm, ⟨22, _⟩ => ⟨S500000x4x4, .f32⟩
  | .hbm, ⟨23, _⟩ => ⟨S_, .f32⟩
  | .hbm, ⟨24, _⟩ => ⟨S500000x4x4, .f32⟩
  | .hbm, ⟨25, _⟩ => ⟨S500000x4x4, .f32⟩
  | .hbm, ⟨26, _⟩ => ⟨S_, .f32⟩
  | .hbm, ⟨27, _⟩ => ⟨S500000x4, .f32⟩
  | .hbm, ⟨28, _⟩ => ⟨S_, .f32⟩
  | .hbm, ⟨29, _⟩ => ⟨S500000x4, .f32⟩
  | .hbm, ⟨30, _⟩ => ⟨S500000x4, .f32⟩
  | .hbm, ⟨31, _⟩ => ⟨S500000x4x1, .f32⟩
  | .hbm, ⟨32, _⟩ => ⟨S500000x4x4, .f32⟩
  | .hbm, ⟨33, _⟩ => ⟨S500000x4x4, .f32⟩
  | .hbm, ⟨34, _⟩ => ⟨S500000x4x4, .f32⟩
  | .hbm, ⟨35, _⟩ => ⟨S_, .f32⟩
  | .hbm, ⟨36, _⟩ => ⟨S500000x4, .f32⟩
  | .hbm, ⟨37, _⟩ => ⟨S500000x4x1, .f32⟩
  | .hbm, ⟨38, _⟩ => ⟨S500000x4x4, .f32⟩
  | .hbm, ⟨39, _⟩ => ⟨S500000x4x4, .f32⟩
  | .hbm, ⟨40, _⟩ => ⟨S500000x4x64, .f32⟩
  | .hbm, ⟨41, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  shapeCasts_S500000x256_S500000x4x64 : S500000x256.ShapeCasts S500000x4x64
  bcast_S_S500000x4x4 : S_.BroadcastsInDim S500000x4x4 (![] : Fin 0 → Fin S500000x4x4.rank)
  reducesTo_S500000x4x4_S500000x4_d2 : S500000x4x4.ReducesTo [2] S500000x4
  h_S_ : 0 < S_.numel
  bcast_S_S500000x4 : S_.BroadcastsInDim S500000x4 (![] : Fin 0 → Fin S500000x4.rank)
  bcast_S500000x4_S500000x4x1_0_1 : S500000x4.BroadcastsInDim S500000x4x1 (![0, 1] : Fin 2 → Fin S500000x4x1.rank)
  bcast_S500000x4x1_S500000x4x4_0_1_2 : S500000x4x1.BroadcastsInDim S500000x4x4 (![0, 1, 2] : Fin 3 → Fin S500000x4x4.rank)
  shapeCasts_S500000x4x64_S500000x256 : S500000x4x64.ShapeCasts S500000x256
  dot_S500000x256_S256x256_S500000x256_1_0_0_1_n_n_wf : DotDims.WF S500000x256 S256x256 S500000x256 [1] [0] [0] [1] [] []
  dot_S500000x4x64_S500000x4x64_S500000x4x4_2_2_1_1_0_0_wf : DotDims.WF S500000x4x64 S500000x4x64 S500000x4x4 [2] [2] [1] [1] [0] [0]
  dot_S500000x4x4_S500000x4x64_S500000x4x64_2_1_1_2_0_0_wf : DotDims.WF S500000x4x4 S500000x4x64 S500000x4x64 [2] [1] [1] [2] [0] [0]

variable [Facts₀]

def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x4x64_S500000x4x64_S500000x4x4_2_2_1_1_0_0 : DotDims S500000x4x64 S500000x4x64 S500000x4x4 where
  lhsContracting := [2]
  rhsContracting := [2]
  lhsNonContracting := [1]
  rhsNonContracting := [1]
  lhsBatch := [0]
  rhsBatch := [0]
  wf := dot_S500000x4x64_S500000x4x64_S500000x4x4_2_2_1_1_0_0_wf
def dot_S500000x4x4_S500000x4x64_S500000x4x64_2_1_1_2_0_0 : DotDims S500000x4x4 S500000x4x64 S500000x4x64 where
  lhsContracting := [2]
  rhsContracting := [1]
  lhsNonContracting := [1]
  rhsNonContracting := [2]
  lhsBatch := [0]
  rhsBatch := [0]
  wf := dot_S500000x4x4_S500000x4x64_S500000x4x64_2_1_1_2_0_0_wf

class Facts : Prop extends Facts₀ where

variable [Facts]
-- ==== Proof.TilesBits.lean ====
/-
  The run of the program on its grid of 250 row tiles.

  Before the region three host lines lay the operands out: the three 256x256 weight matrices side by side as one
  256x768 matrix, the three bias vectors end to end as one vector of 768, and that vector as a 1x768 row. None of
  them writes an argument array, so the region finds every argument as launched.
  At tile `t` the body reads three staged blocks — rows `2000·t … 2000·t + 1999` of the input, the whole 256x768
  matrix, the whole 1x768 row — and overwrites the whole staged 2000x256 output block with one value computed from
  them (`tileOut`). Inputs stay in place, so each input block is found at its block of the array whether or not the
  pipeline fetched it at that tile, and the output block written back at tile `t` is `tileOut` of the input blocks
  there. From this the launch theorem gives the run: it terminates, nothing faults, every array of the region ends
  at what the write-backs leave, and every other buffer ends as the region found it.
-/
import proofs.«117268_j25202868093362_2_alg».proof.Proof.Gen.Kernel.Launch
import proofs.«117268_j25202868093362_2_alg».proof.Proof.Gen.Kernel.Skeleton
import proofs.«117268_j25202868093362_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- What core `c`'s buffers hold when the region is entered: the launch memory after the three host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its three host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.reshape_writes, Finset.mem_singleton]
    repeat' apply And.intro
    all_goals exact StableHlo.devRef_ne_of_ne (by decide)))

/-! ## The blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or not, for any proof data over the
    region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every tile, fetched there or not, for any proof data over the
    region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every tile, fetched there or not, for any proof data over the
    region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame -/

/-- For any proof data over the region-entry arrays, a run to the launch theorem's post leaves the seven argument
    arrays as launched: the input the region stages by `Dat.arrAt_in`, the six it does not stage because they
    bypass the region, each then by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## What the body leaves in the output block -/

/-- The whole 2000x256 block: the one rectangle the body loads and stores through. -/
abbrev rOut : Rect S2000x256 := Rect.unit (s := S2000x256) ![0, 0] S2000x256.size inb_S2000x256_S2000x256_0_0
abbrev rW : Rect S256x768 := Rect.unit (s := S256x768) ![0, 0] S256x768.size inb_S256x768_S256x768_0_0
abbrev rB : Rect S1x768 := Rect.unit (s := S1x768) ![0, 0] S1x768.size inb_S1x768_S1x768_0_0

/-- The value the body stores, as a function of the three loaded blocks: the query, key and value lanes of the
    projected tile, the four heads' attention outputs, joined along the columns. -/
def tileVal (v0 : Vec F S2000x256 .f32) (v2 : Vec F S256x768 .f32) (v6 : Vec F S1x768 .f32) : Vec F S2000x256 .f32 :=
  k0_pay1 (k0_pay14 v0 v2 v6) (k0_pay15 v0 v2 v6) (k0_pay16 v0 v2 v6) (k0_pay17 v0 v2 v6)
    (k0_pay23 (k0_pay14 v0 v2 v6) (k0_pay15 v0 v2 v6) (k0_pay16 v0 v2 v6) (k0_pay17 v0 v2 v6) (k0_pay18 v0 v2 v6) (k0_pay19 v0 v2 v6) (k0_pay20 v0 v2 v6) (k0_pay21 v0 v2 v6) (k0_pay22 (F := F)))
    (k0_pay26 (k0_pay14 v0 v2 v6) (k0_pay15 v0 v2 v6) (k0_pay16 v0 v2 v6) (k0_pay17 v0 v2 v6)
      (k0_pay24 (k0_pay7 v0 v2 v6) (k0_pay10 v0 v2 v6) (k0_pay11 v0 v2 v6) (k0_pay12 v0 v2 v6) (k0_pay13 v0 v2 v6))
      (k0_pay25 (k0_pay7 v0 v2 v6) (k0_pay10 v0 v2 v6) (k0_pay11 v0 v2 v6) (k0_pay12 v0 v2 v6) (k0_pay13 v0 v2 v6)))
    (k0_pay29 (k0_pay14 v0 v2 v6) (k0_pay15 v0 v2 v6) (k0_pay16 v0 v2 v6) (k0_pay17 v0 v2 v6)
      (k0_pay27 (k0_pay8 v0 v2 v6) (k0_pay10 v0 v2 v6) (k0_pay11 v0 v2 v6) (k0_pay12 v0 v2 v6) (k0_pay13 v0 v2 v6))
      (k0_pay28 (k0_pay8 v0 v2 v6) (k0_pay10 v0 v2 v6) (k0_pay11 v0 v2 v6) (k0_pay12 v0 v2 v6) (k0_pay13 v0 v2 v6)))
    (k0_pay30 (k0_pay9 v0 v2 v6) (k0_pay10 v0 v2 v6) (k0_pay11 v0 v2 v6) (k0_pay12 v0 v2 v6) (k0_pay13 v0 v2 v6))
    (k0_pay31 (k0_pay9 v0 v2 v6) (k0_pay10 v0 v2 v6) (k0_pay11 v0 v2 v6) (k0_pay12 v0 v2 v6) (k0_pay13 v0 v2 v6))

/-- The output block after the body: its one store, over the whole block, of `tileVal` of the loaded blocks. -/
def tileOut (x0 : Vec F S2000x256 .f32) (x1 : Vec F S256x768 .f32) (x2 : Vec F S1x768 .f32) : Vec F S2000x256 .f32 :=
  View.canon [⟨rOut, tileVal (View.ld x0 rOut) (View.ld x1 rW) (View.ld x2 rB)⟩]

/-- The one store covers the block. -/
theorem cover_out (p0 : Vec F S2000x256 .f32) (y : S2000x256.Idx) :
    ∃ pc ∈ ([⟨rOut, p0⟩] : List (View.Piece (Elt F) S2000x256 .f32)), y ∈ pc.1.set :=
  View.cover_of_tiled [⟨rOut, p0⟩] S2000x256.size (by rfl) y

/-! ## The body's triple -/

set_option maxHeartbeats 4000000 in
/-- The body on whole staging memrefs — the three inputs at contents `x0`, `x1`, `x2`, the output at anything — runs to
    the continuation holding the inputs as they were and the output at `tileOut x0 x1 x2`. -/
theorem sound_kernel (c : Dev nD) (E : Set ℕ) (i : grid0.Coords)
    (arg1 : Memref sig .tc .vmem S2000x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S2000x256 .f32) (harg4 : arg4.IsWhole)
    (x0 : Vec F S2000x256 .f32) (x1 : Vec F S256x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at tile `t` each input's
    buffer at its block and the output's at `tileOut` of the input blocks; nothing kept between tiles, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = tileOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any tile: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every array of the region ends at what the
    write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Tiles

end
-- ==== Proof.TilesIdeal.lean ====
/-
  The run of the program on its grid of 250 row tiles.

  Before the region three host lines lay the operands out: the three 256x256 weight matrices side by side as one
  256x768 matrix, the three bias vectors end to end as one vector of 768, and that vector as a 1x768 row. None of
  them writes an argument array, so the region finds every argument as launched.
  At tile `t` the body reads three staged blocks — rows `2000·t … 2000·t + 1999` of the input, the whole 256x768
  matrix, the whole 1x768 row — and overwrites the whole staged 2000x256 output block with one value computed from
  them (`tileOut`). Inputs stay in place, so each input block is found at its block of the array whether or not the
  pipeline fetched it at that tile, and the output block written back at tile `t` is `tileOut` of the input blocks
  there. From this the launch theorem gives the run: it terminates, nothing faults, every array of the region ends
  at what the write-backs leave, and every other buffer ends as the region found it.
-/
import proofs.«117268_j25202868093362_2_alg».proof.Proof.Gen.KernelIdeal.Launch
import proofs.«117268_j25202868093362_2_alg».proof.Proof.Gen.KernelIdeal.Skeleton
import proofs.«117268_j25202868093362_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- What core `c`'s buffers hold when the region is entered: the launch memory after the three host lines. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its three host lines followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.reshape_writes, Finset.mem_singleton]
    repeat' apply And.intro
    all_goals exact StableHlo.devRef_ne_of_ne (by decide)))
/-- No host line writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.reshape_writes, Finset.mem_singleton]
    repeat' apply And.intro
    all_goals exact StableHlo.devRef_ne_of_ne (by decide)))

/-! ## The blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or not, for any proof data over the
    region-entry arrays whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every tile, fetched there or not, for any proof data over the
    region-entry arrays whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every tile, fetched there or not, for any proof data over the
    region-entry arrays whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame -/

/-- For any proof data over the region-entry arrays, a run to the launch theorem's post leaves the seven argument
    arrays as launched: the input the region stages by `Dat.arrAt_in`, the six it does not stage because they
    bypass the region, each then by `V_main_argK`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## What the body leaves in the output block -/

/-- The whole 2000x256 block: the one rectangle the body loads and stores through. -/
abbrev rOut : Rect S2000x256 := Rect.unit (s := S2000x256) ![0, 0] S2000x256.size inb_S2000x256_S2000x256_0_0
abbrev rW : Rect S256x768 := Rect.unit (s := S256x768) ![0, 0] S256x768.size inb_S256x768_S256x768_0_0
abbrev rB : Rect S1x768 := Rect.unit (s := S1x768) ![0, 0] S1x768.size inb_S1x768_S1x768_0_0

/-- The value the body stores, as a function of the three loaded blocks: the query, key and value lanes of the
    projected tile, the four heads' attention outputs, joined along the columns. -/
def tileVal (v0 : Vec F S2000x256 .f32) (v2 : Vec F S256x768 .f32) (v6 : Vec F S1x768 .f32) : Vec F S2000x256 .f32 :=
  k0_pay1 (k0_pay14 v0 v2 v6) (k0_pay15 v0 v2 v6) (k0_pay16 v0 v2 v6) (k0_pay17 v0 v2 v6)
    (k0_pay23 (k0_pay14 v0 v2 v6) (k0_pay15 v0 v2 v6) (k0_pay16 v0 v2 v6) (k0_pay17 v0 v2 v6) (k0_pay18 v0 v2 v6) (k0_pay19 v0 v2 v6) (k0_pay20 v0 v2 v6) (k0_pay21 v0 v2 v6) (k0_pay22 (F := F)))
    (k0_pay26 (k0_pay14 v0 v2 v6) (k0_pay15 v0 v2 v6) (k0_pay16 v0 v2 v6) (k0_pay17 v0 v2 v6)
      (k0_pay24 (k0_pay7 v0 v2 v6) (k0_pay10 v0 v2 v6) (k0_pay11 v0 v2 v6) (k0_pay12 v0 v2 v6) (k0_pay13 v0 v2 v6))
      (k0_pay25 (k0_pay7 v0 v2 v6) (k0_pay10 v0 v2 v6) (k0_pay11 v0 v2 v6) (k0_pay12 v0 v2 v6) (k0_pay13 v0 v2 v6)))
    (k0_pay29 (k0_pay14 v0 v2 v6) (k0_pay15 v0 v2 v6) (k0_pay16 v0 v2 v6) (k0_pay17 v0 v2 v6)
      (k0_pay27 (k0_pay8 v0 v2 v6) (k0_pay10 v0 v2 v6) (k0_pay11 v0 v2 v6) (k0_pay12 v0 v2 v6) (k0_pay13 v0 v2 v6))
      (k0_pay28 (k0_pay8 v0 v2 v6) (k0_pay10 v0 v2 v6) (k0_pay11 v0 v2 v6) (k0_pay12 v0 v2 v6) (k0_pay13 v0 v2 v6)))
    (k0_pay30 (k0_pay9 v0 v2 v6) (k0_pay10 v0 v2 v6) (k0_pay11 v0 v2 v6) (k0_pay12 v0 v2 v6) (k0_pay13 v0 v2 v6))
    (k0_pay31 (k0_pay9 v0 v2 v6) (k0_pay10 v0 v2 v6) (k0_pay11 v0 v2 v6) (k0_pay12 v0 v2 v6) (k0_pay13 v0 v2 v6))

/-- The output block after the body: its one store, over the whole block, of `tileVal` of the loaded blocks. -/
def tileOut (x0 : Vec F S2000x256 .f32) (x1 : Vec F S256x768 .f32) (x2 : Vec F S1x768 .f32) : Vec F S2000x256 .f32 :=
  View.canon [⟨rOut, tileVal (View.ld x0 rOut) (View.ld x1 rW) (View.ld x2 rB)⟩]

/-- The one store covers the block. -/
theorem cover_out (p0 : Vec F S2000x256 .f32) (y : S2000x256.Idx) :
    ∃ pc ∈ ([⟨rOut, p0⟩] : List (View.Piece (Elt F) S2000x256 .f32)), y ∈ pc.1.set :=
  View.cover_of_tiled [⟨rOut, p0⟩] S2000x256.size (by rfl) y

/-! ## The body's triple -/

set_option maxHeartbeats 4000000 in
/-- The body on whole staging memrefs — the three inputs at contents `x0`, `x1`, `x2`, the output at anything — runs to
    the continuation holding the inputs as they were and the output at `tileOut x0 x1 x2`. -/
theorem sound_kernel (c : Dev nD) (E : Set ℕ) (i : grid0.Coords)
    (arg1 : Memref sig .tc .vmem S2000x256 .f32) (harg1 : arg1.IsWhole) (arg2 : Memref sig .tc .vmem S256x768 .f32) (harg2 : arg2.IsWhole)
    (arg3 : Memref sig .tc .vmem S1x768 .f32) (harg3 : arg3.IsWhole) (arg4 : Memref sig .tc .vmem S2000x256 .f32) (harg4 : arg4.IsWhole)
    (x0 : Vec F S2000x256 .f32) (x1 : Vec F S256x768 .f32) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tileOut x0 x1 x2)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The proof data -/

/-- The region's proof data on core `c`: the arrays as the region finds them; after the body at tile `t` each input's
    buffer at its block and the output's at `tileOut` of the input blocks; nothing kept between tiles, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOut (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = tileOut (iblk m c 0 t) (iblk m c 1 t) (iblk m c 2 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any tile: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault; every array of the region ends at what the
    write-backs leave and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Tiles

end
-- ==== Proof.Spec.lean ====
/-
  The function both programs compute, stated once over plain index functions.

  For one row `x` of the input (256 entries) three affine maps give the query, key and value rows
  `Q = x·Wq + bq`, `K = x·Wk + bk`, `V = x·Wv + bv` (256 entries each, read as 4 heads of 64 lanes:
  column `64·h + d` is lane `d` of head `h`). Head `h` attends over the four heads `g` of the SAME row:
  score `s h g = (∑ e, Q (h,e) · K (g,e)) · c`, the row maximum `M h` of `s h ·` (a fold of `max` from
  the pattern of -∞), weights `exp (s h g - M h) / ∑ g', exp (s h g' - M h)`, and the output lane
  `(h,d)` is `∑ g, weight h g · V (g,d)`. The scale `c` and the fold's start are kept as the bit patterns
  the programs print (the same words on both sides: never evaluated).
-/
import Idealize.ShloMosaic.PureOps.Ideal
import Idealize.ShloMosaic.Lib.ValueIdx

noncomputable section

namespace Cert.AttnSpec

open Idealize.ShloMosaic Idealize.ShloMosaic.ValueIdx

/-- Lane `d` of head `h` is column `64·h + d` of a 256-wide row. -/
def col (h : Fin 4) (d : Fin 64) : Fin 256 := ⟨64 * h.val + d.val, by omega⟩

theorem col_val (h : Fin 4) (d : Fin 64) : (col h d).val = 64 * h.val + d.val := rfl

/-- The score scale, as printed (the pattern of 1/8). -/
abbrev scaleC : EReal := Ideal.ofBits .f32 0x3E000000#32
/-- Where the row maximum's fold starts, as printed (the pattern of -∞). -/
abbrev negInf : EReal := Ideal.ofBits .f32 0xFF800000#32

/-- One affine map of a row: entry `c` of `x·W + b`. -/
def proj (x : Fin 256 → EReal) (W : Fin 256 → Fin 256 → EReal) (b : Fin 256 → EReal) (c : Fin 256) : EReal :=
  (∑ k : Fin 256, x k * W k c) + b c

/-- The scaled score of query head `h` against key head `g`. -/
def score (Q K : Fin 256 → EReal) (h g : Fin 4) : EReal :=
  (∑ e : Fin 64, Q (col h e) * K (col g e)) * scaleC

/-- The largest score of query head `h`. -/
def rowMax (Q K : Fin 256 → EReal) (h : Fin 4) : EReal :=
  (Finset.univ : Finset (Fin 4)).fold max negInf (score Q K h)

/-- The shifted exponential of a score. -/
def ex (Q K : Fin 256 → EReal) (h g : Fin 4) : EReal := Ideal.exp (score Q K h g - rowMax Q K h)

/-- The softmax denominator of query head `h`. -/
def den (Q K : Fin 256 → EReal) (h : Fin 4) : EReal := ∑ g : Fin 4, ex Q K h g

/-- The attention weight of key head `g` for query head `h`. -/
def wt (Q K : Fin 256 → EReal) (h g : Fin 4) : EReal := Ideal.div (ex Q K h g) (den Q K h)

/-- Output lane `d` of head `h`: the weighted sum of the value heads' lane `d`. -/
def attn (Q K V : Fin 256 → EReal) (h : Fin 4) (d : Fin 64) : EReal :=
  ∑ g : Fin 4, wt Q K h g * V (col g d)

/-- The whole result, row by row: row `n` of `H` through the three affine maps and the attention across heads;
    column `j` of the result is lane `j % 64` of head `j / 64`. -/
def G (H : FVec Ideal ⟨2, ![500000, 256]⟩ .f32)
    (Wq : FVec Ideal ⟨2, ![256, 256]⟩ .f32) (bq : FVec Ideal ⟨1, ![256]⟩ .f32)
    (Wk : FVec Ideal ⟨2, ![256, 256]⟩ .f32) (bk : FVec Ideal ⟨1, ![256]⟩ .f32)
    (Wv : FVec Ideal ⟨2, ![256, 256]⟩ .f32) (bv : FVec Ideal ⟨1, ![256]⟩ .f32) :
    FVec Ideal ⟨2, ![500000, 256]⟩ .f32 := fun i =>
  let x : Fin 256 → EReal := fun k => H (ix2 (i 0) k)
  attn (proj x (fun k c => Wq (ix2 k c)) (fun c => bq (ix1 c)))
       (proj x (fun k c => Wk (ix2 k c)) (fun c => bk (ix1 c)))
       (proj x (fun k c => Wv (ix2 k c)) (fun c => bv (ix1 c)))
       ⟨(i 1).val / 64, by have := idx2_lt1 i; omega⟩ ⟨(i 1).val % 64, Nat.mod_lt _ (by norm_num)⟩

end Cert.AttnSpec

end
-- ==== Proof.TileSpec.lean ====
/-
  The attention function read off one tile of rows and the JOINED operands.

  The three weight matrices lie side by side in one 256x768 matrix — query columns 0…255, key columns 256…511,
  value columns 512…767 — and the three biases likewise in one 1x768 row. Row `p` of a 2000-row tile of the input
  goes through the three sections' affine maps and the attention across heads of the specification.
-/
import proofs.«117268_j25202868093362_2_alg».proof.Proof.Spec

noncomputable section

namespace Cert.AttnSpec

open Idealize.ShloMosaic Idealize.ShloMosaic.ValueIdx

/-- Column `c` of section `s` (0 query, 1 key, 2 value) of the 768-wide joined operands. -/
def sec (s : Fin 3) (c : Fin 256) : Fin 768 := ⟨256 * s.val + c.val, by omega⟩

theorem sec_val (s : Fin 3) (c : Fin 256) : (sec s c).val = 256 * s.val + c.val := rfl

/-- Section `s`'s affine map of row `p` of the tile `x0`, with the joined matrix `x1` and the joined bias row `x2`. -/
def tileProj (x0 : FVec Ideal ⟨2, ![2000, 256]⟩ .f32) (x1 : FVec Ideal ⟨2, ![256, 768]⟩ .f32)
    (x2 : FVec Ideal ⟨2, ![1, 768]⟩ .f32) (p : Fin 2000) (s : Fin 3) : Fin 256 → EReal :=
  proj (fun k => x0 (ix2 p k)) (fun k c => x1 (ix2 k (sec s c))) (fun c => x2 (ix2 (0 : Fin 1) (sec s c)))

/-- Output lane `d` of head `h` of row `p` of the tile. -/
def tile (x0 : FVec Ideal ⟨2, ![2000, 256]⟩ .f32) (x1 : FVec Ideal ⟨2, ![256, 768]⟩ .f32)
    (x2 : FVec Ideal ⟨2, ![1, 768]⟩ .f32) (p : Fin 2000) (h : Fin 4) (d : Fin 64) : EReal :=
  attn (tileProj x0 x1 x2 p 0) (tileProj x0 x1 x2 p 1) (tileProj x0 x1 x2 p 2) h d

end Cert.AttnSpec

end
-- ==== Proof.LibNary3.lean ====
/-
  A host operation with three operands read at its result, and a three-piece join taken apart.

  The library reads an `nary` operation at its result buffer as its function of the family `fun k => F (xs k)` of the
  operands' contents, and, for a literal family of FOUR references, as the function of the four contents each at its own
  reference, so that a rewriting pass can go on into them. `nary3_result'` is the same statement for a literal family of
  THREE references (a `stablehlo.concatenate` of three pieces), the family written with a named selector `pick3` whose
  three values are its three arguments. A rewriting pass does not enter the piece list of a `concatenate` (the join's
  side condition speaks of the list); `concat3_congr` enters it by hand: two three-piece joins of pieces of one shape
  agree when the pieces agree.
-/
import Idealize.ShloMosaic.Lib.StableHlo.Run

noncomputable section

namespace Cert.Nary3

open Idealize.ShloMosaic Idealize.ShloMosaic.StableHlo

variable {τ : Topo} {sig : RefSig} {Val : EltTy → Type}

/-- A family over `Fin 3` from its three members. -/
def pick3 {α : Fin 3 → Type} (a : α 0) (b : α 1) (c : α 2) : (k : Fin 3) → α k :=
  Fin.cons a (Fin.cons (α := fun i : Fin 2 => α i.succ) b (Fin.cons (α := fun i : Fin 1 => α i.succ.succ) c (fun i => i.elim0)))

theorem pick3_zero {α : Fin 3 → Type} (a : α 0) (b : α 1) (c : α 2) : pick3 a b c 0 = a := rfl
theorem pick3_one {α : Fin 3 → Type} (a : α 0) (b : α 1) (c : α 2) : pick3 a b c 1 = b := rfl
theorem pick3_two {α : Fin 3 → Type} (a : α 0) (b : α 1) (c : α 2) : pick3 a b c 2 = c := rfl

/-- `nary ![x, a, b] y f` at `y`: `f` of the three operands' contents, each at its own reference (the result reference
    left out of the rewriting index, for use in one `simp` pass). -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (pick3 (α := fun k => ((![x, a, b] : Fin 3 → Ref sig .tc) k).ty.Contents Val)
            (F (Proc.devRef .tc x)) (F (Proc.devRef .tc a)) (F (Proc.devRef .tc b))) := by
  rw [nary_result]; congr 1; funext k; fin_cases k <;> rfl

/-- Two three-piece joins along one axis agree when their pieces do (the side condition speaks of the pieces' shapes only). -/
theorem concat3_congr {α : Type} {t s : Shape} (a : Fin t.rank) {p0 p0' p1 p1' p2 p2' : s.Idx → α}
    (h : Shape.Concatenates (([⟨s, p0⟩, ⟨s, p1⟩, ⟨s, p2⟩] : List ((s : Shape) × (s.Idx → α))).map (·.1)) t a)
    (h' : Shape.Concatenates (([⟨s, p0'⟩, ⟨s, p1'⟩, ⟨s, p2'⟩] : List ((s : Shape) × (s.Idx → α))).map (·.1)) t a)
    (e0 : p0 = p0') (e1 : p1 = p1') (e2 : p2 = p2') :
    concatenate t a [⟨s, p0⟩, ⟨s, p1⟩, ⟨s, p2⟩] h = concatenate t a [⟨s, p0'⟩, ⟨s, p1'⟩, ⟨s, p2'⟩] h' := by
  subst e0 e1 e2; rfl

end Cert.Nary3

end
-- ==== Proof.HostOperands.lean ====
/-
  The result array of the idealized kernel, as one function of the argument arrays.

  The region's second and third operands are written by the host: the 256x768 matrix is the three weight matrices
  side by side — at column `256·s + c` it holds entry `c` of section `s`'s matrix (query, key, value) — and the
  1x768 row is the three biases end to end. Tile `t` reads rows `2000·t … 2000·t + 1999` of the input and these two
  whole operands, and writes back rows `2000·t …` of the result; the 250 tiles cover the 500000 rows.
-/
import proofs.«117268_j25202868093362_2_alg».proof.Proof.TilesIdeal
import proofs.«117268_j25202868093362_2_alg».proof.Proof.TileSpec
import proofs.«117268_j25202868093362_2_alg».proof.Proof.LibNary3
import Idealize.ShloMosaic.Lib.Pipeline.Value
import Idealize.ShloMosaic.Lib.ValueIdx
import Idealize.ShloMosaic.Lib.StableHlo.Run

set_option maxRecDepth 16384

noncomputable section

namespace Cert.KernelIdeal.Rows

open Idealize.ShloMosaic Idealize.ShloMosaic.TcCoe Idealize.ShloMosaic.ValueIdx
open Idealize.SL.Sem Idealize.ShloMosaic.StableHlo
open Idealize.ShloMosaic.Pipeline (Dat Cfg Window)
open Cert.KernelIdeal Cert.KernelIdeal.Gen Cert.KernelIdeal.Tiles Cert.AttnSpec

variable (m : (ℓ : Loc nD τ sig) → Buf (Elt Ideal) ℓ) (ρ : Dev nD → PrngReg)

/-! ## The two operands the host writes -/

/-- Section `s`'s weight matrix and bias vector, as launched: query (arguments 3, 4), key (1, 2), value (5, 6). -/
def Wsec (c : Dev nD) : Fin 3 → (S256x256.Idx → EReal)
  | 0 => m ((c : Thread nD τ).loc main_arg3)
  | 1 => m ((c : Thread nD τ).loc main_arg1)
  | 2 => m ((c : Thread nD τ).loc main_arg5)
def bsec (c : Dev nD) : Fin 3 → (S256.Idx → EReal)
  | 0 => m ((c : Thread nD τ).loc main_arg4)
  | 1 => m ((c : Thread nD τ).loc main_arg2)
  | 2 => m ((c : Thread nD τ).loc main_arg6)

/-- The region finds the three weight matrices joined along the columns. -/
theorem V_v0 (c : Dev nD) : (V m c main_v0 : S256x768.Idx → EReal)
    = concatenate S256x768 1 [⟨S256x256, Wsec m c 0⟩, ⟨S256x256, Wsec m c 1⟩, ⟨S256x256, Wsec m c 2⟩] concatenates_S256x256_S256x256_S256x256_S256x768_d1 := by
  dsimp only [V, hostOps0]
  after_results
  rfl

/-- The region finds the three biases joined end to end, as one row. -/
theorem V_v2 (c : Dev nD) : (V m c main_v2 : S1x768.Idx → EReal)
    = shapeCast S1x768 (concatenate S768 0 [⟨S256, bsec m c 0⟩, ⟨S256, bsec m c 1⟩, ⟨S256, bsec m c 2⟩] concatenates_S256_S256_S256_S768_d0) shapeCasts_S768_S1x768 := by
  dsimp only [V, hostOps0]
  simp (disch := decide) only [after_cons, after_nil, reshape_result', Cert.Nary3.nary3_result', nary_result_ne', reshape_result_ne',
    Cert.Nary3.pick3_zero, Cert.Nary3.pick3_one, Cert.Nary3.pick3_two]
  rfl

/-- The joined matrix at column `c'` of section `s` is section `s`'s matrix at column `c'`. -/
theorem V_v0_apply (c : Dev nD) (k : Fin 256) (s : Fin 3) (c' : Fin 256) :
    (V m c main_v0 : S256x768.Idx → EReal) (ix2 k (sec s c')) = Wsec m c s (ix2 k c') := by
  rw [V_v0]
  have hi : ∀ b : Fin S256x256.rank, b.cast (rfl : S256x256.rank = S256x768.rank) ≠ (1 : Fin 2) →
      ((ix2 k c' : S256x256.Idx) b).val = ((ix2 k (sec s c') : S256x768.Idx) (b.cast rfl)).val := fun b hb => by
    match b with
    | ⟨0, _⟩ => rfl
    | ⟨1, _⟩ => exact absurd rfl hb
  match s with
  | ⟨0, _⟩ => exact concatenate_apply_piece (t := S256x768) (1 : Fin 2) [⟨S256x256, Wsec m c 0⟩, ⟨S256x256, Wsec m c 1⟩, ⟨S256x256, Wsec m c 2⟩] concatenates_S256x256_S256x256_S256x256_S256x768_d1 (ix2 k (sec ⟨0, by omega⟩ c')) 0 (by show _ < 3; omega) S256x256 (Wsec m c 0) rfl rfl 0 rfl (ix2 k c') hi (by show 0 + c'.val = 256 * 0 + c'.val; omega)
  | ⟨1, _⟩ => exact concatenate_apply_piece (t := S256x768) (1 : Fin 2) [⟨S256x256, Wsec m c 0⟩, ⟨S256x256, Wsec m c 1⟩, ⟨S256x256, Wsec m c 2⟩] concatenates_S256x256_S256x256_S256x256_S256x768_d1 (ix2 k (sec ⟨1, by omega⟩ c')) 1 (by show _ < 3; omega) S256x256 (Wsec m c 1) rfl rfl 256 rfl (ix2 k c') hi (by show 256 + c'.val = 256 * 1 + c'.val; omega)
  | ⟨2, _⟩ => exact concatenate_apply_piece (t := S256x768) (1 : Fin 2) [⟨S256x256, Wsec m c 0⟩, ⟨S256x256, Wsec m c 1⟩, ⟨S256x256, Wsec m c 2⟩] concatenates_S256x256_S256x256_S256x256_S256x768_d1 (ix2 k (sec ⟨2, by omega⟩ c')) 2 (by show _ < 3; omega) S256x256 (Wsec m c 2) rfl rfl 512 rfl (ix2 k c') hi (by show 512 + c'.val = 256 * 2 + c'.val; omega)

/-- The joined bias row at column `c'` of section `s` is section `s`'s bias at `c'`. -/
theorem V_v2_apply (c : Dev nD) (s : Fin 3) (c' : Fin 256) :
    (V m c main_v2 : S1x768.Idx → EReal) (ix2 (0 : Fin 1) (sec s c')) = bsec m c s (ix1 c') := by
  rw [V_v2]
  refine (shapeCast_apply _ shapeCasts_S768_S1x768 _ (ix1 (sec s c')) (by
    rw [Shape.rowMajor_val_one, Shape.rowMajor_val_two]; show (sec s c').val = 0 * 768 + (sec s c').val; omega)).trans ?_
  have hi : ∀ b : Fin S256.rank, b.cast (rfl : S256.rank = S768.rank) ≠ (0 : Fin 1) →
      ((ix1 c' : S256.Idx) b).val = ((ix1 (sec s c') : S768.Idx) (b.cast rfl)).val := fun b hb => by
    match b with
    | ⟨0, _⟩ => exact absurd rfl hb
  match s with
  | ⟨0, _⟩ => exact concatenate_apply_piece (t := S768) (0 : Fin 1) [⟨S256, bsec m c 0⟩, ⟨S256, bsec m c 1⟩, ⟨S256, bsec m c 2⟩] concatenates_S256_S256_S256_S768_d0 (ix1 (sec ⟨0, by omega⟩ c')) 0 (by show _ < 3; omega) S256 (bsec m c 0) rfl rfl 0 rfl (ix1 c') hi (by show 0 + c'.val = 256 * 0 + c'.val; omega)
  | ⟨1, _⟩ => exact concatenate_apply_piece (t := S768) (0 : Fin 1) [⟨S256, bsec m c 0⟩, ⟨S256, bsec m c 1⟩, ⟨S256, bsec m c 2⟩] concatenates_S256_S256_S256_S768_d0 (ix1 (sec ⟨1, by omega⟩ c')) 1 (by show _ < 3; omega) S256 (bsec m c 1) rfl rfl 256 rfl (ix1 c') hi (by show 256 + c'.val = 256 * 1 + c'.val; omega)
  | ⟨2, _⟩ => exact concatenate_apply_piece (t := S768) (0 : Fin 1) [⟨S256, bsec m c 0⟩, ⟨S256, bsec m c 1⟩, ⟨S256, bsec m c 2⟩] concatenates_S256_S256_S256_S768_d0 (ix1 (sec ⟨2, by omega⟩ c')) 2 (by show _ < 3; omega) S256 (bsec m c 2) rfl rfl 512 rfl (ix1 c') hi (by show 512 + c'.val = 256 * 2 + c'.val; omega)

/-! ## Where the blocks lie -/

/-- The index maps over the grid: the input's and the result's block at tile `t` is row block `t`, column block 0;
    the two joined operands are one block each. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

end Cert.KernelIdeal.Rows

end
-- ==== Proof.TileValue.lean ====
/-
  The value the body stores, read at an index: it is the specification's tile function.

  The stored 2000x256 tile is computed from a 2000x256 tile `x0` of the input, the joined 256x768 weights `x1` and the
  joined 1x768 bias row `x2`. Row `p` of the product `x0·x1` plus the bias row holds, side by side, the query, key
  and value rows of row `p` (768 entries: section `s` at columns `256·s …`, head `g` of a section at its columns
  `64·g …`). For each query head `h` the four scores against the key heads are the lane sums of the products times the
  scale; the row of four scores goes through the maximum (a fold of `max` from the pattern of -∞), the exponentials
  of the shifted scores, their sum and the quotients; the head's output is the sum of the four value heads weighted by
  the four quotients, the partial sums taken left to right (which is how a sum over four indices is written out);
  the four heads' outputs lie side by side. Read at row `p`, lane `d` of head `h`, this is `attn Q K V h d` for the
  three affine maps `Q`, `K`, `V` of row `p`: the specification's `tile`.

  The file goes bottom-up: the layout operations read at an index given by coordinates (a vector as a column, a column
  repeated along the rows, four pieces joined along the columns), the sums and the maximum along the columns read at a
  row, the matrix product at an index, the sections and heads of the projected tile, one head's attention as
  operations on whole tiles each read at an index, and the stored tile as the four heads joined.
-/
import proofs.«117268_j25202868093362_2_alg».proof.Proof.TilesIdeal
import proofs.«117268_j25202868093362_2_alg».proof.Proof.TileSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TileValue

open Idealize.ShloMosaic Idealize.ShloMosaic.ValueIdx
open Cert.KernelIdeal Cert.KernelIdeal.Gen
open Cert.AttnSpec (col sec tileProj tile score rowMax ex den wt attn proj scaleC negInf)

/-! ## Layout operations read at an index given by coordinates -/

section Layout
variable {α : Type}

/-- A vector of `a` entries cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the rows to `a × b` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Four pieces of one shape joined along the columns -/

section Concat
variable {α : Type}

/-- Four `n × m` pieces joined along axis 1 into `n × M`: column `m·g + e` of the result is column `e` of piece `g`. -/
theorem concat4_axis1_apply {n m M : ℕ} (x0 x1 x2 x3 : (⟨2, ![n, m]⟩ : Shape).Idx → α)
    (h : Shape.Concatenates [(⟨2, ![n, m]⟩ : Shape), ⟨2, ![n, m]⟩, ⟨2, ![n, m]⟩, ⟨2, ![n, m]⟩] ⟨2, ![n, M]⟩ 1)
    (p : Fin n) (c : Fin M) (g : Fin 4) (e : Fin m) (hc : c.val = m * g.val + e.val) :
    concatenate ⟨2, ![n, M]⟩ 1 [⟨⟨2, ![n, m]⟩, x0⟩, ⟨⟨2, ![n, m]⟩, x1⟩, ⟨⟨2, ![n, m]⟩, x2⟩, ⟨⟨2, ![n, m]⟩, x3⟩] h (ix2 p c)
      = (![x0, x1, x2, x3] g) (ix2 p e) := by
  have hi : ∀ b : Fin (⟨2, ![n, m]⟩ : Shape).rank, b.cast (rfl : (⟨2, ![n, m]⟩ : Shape).rank = (⟨2, ![n, M]⟩ : Shape).rank) ≠ (1 : Fin 2) →
      ((ix2 p e : (⟨2, ![n, m]⟩ : Shape).Idx) b).val = ((ix2 p c : (⟨2, ![n, M]⟩ : Shape).Idx) (b.cast rfl)).val := fun b hb => by
    match b with
    | ⟨0, _⟩ => rfl
    | ⟨1, _⟩ => exact absurd rfl hb
  match g with
  | ⟨0, _⟩ =>
    exact concatenate_apply_piece (t := ⟨2, ![n, M]⟩) (1 : Fin 2)
      [⟨⟨2, ![n, m]⟩, x0⟩, ⟨⟨2, ![n, m]⟩, x1⟩, ⟨⟨2, ![n, m]⟩, x2⟩, ⟨⟨2, ![n, m]⟩, x3⟩] h (ix2 p c) 0 (by show (0 : ℕ) < 4; omega) ⟨2, ![n, m]⟩ x0 rfl rfl
      0 rfl (ix2 p e) hi (by show 0 + e.val = c.val; rw [hc]; show 0 + e.val = m * 0 + e.val; omega)
  | ⟨1, _⟩ =>
    exact concatenate_apply_piece (t := ⟨2, ![n, M]⟩) (1 : Fin 2)
      [⟨⟨2, ![n, m]⟩, x0⟩, ⟨⟨2, ![n, m]⟩, x1⟩, ⟨⟨2, ![n, m]⟩, x2⟩, ⟨⟨2, ![n, m]⟩, x3⟩] h (ix2 p c) 1 (by show (1 : ℕ) < 4; omega) ⟨2, ![n, m]⟩ x1 rfl rfl
      m rfl (ix2 p e) hi (by show m + e.val = c.val; rw [hc]; show m + e.val = m * 1 + e.val; omega)
  | ⟨2, _⟩ =>
    exact concatenate_apply_piece (t := ⟨2, ![n, M]⟩) (1 : Fin 2)
      [⟨⟨2, ![n, m]⟩, x0⟩, ⟨⟨2, ![n, m]⟩, x1⟩, ⟨⟨2, ![n, m]⟩, x2⟩, ⟨⟨2, ![n, m]⟩, x3⟩] h (ix2 p c) 2 (by show (2 : ℕ) < 4; omega) ⟨2, ![n, m]⟩ x2 rfl rfl
      (m + m) rfl (ix2 p e) hi (by show m + m + e.val = c.val; rw [hc]; show m + m + e.val = m * 2 + e.val; omega)
  | ⟨3, _⟩ =>
    exact concatenate_apply_piece (t := ⟨2, ![n, M]⟩) (1 : Fin 2)
      [⟨⟨2, ![n, m]⟩, x0⟩, ⟨⟨2, ![n, m]⟩, x1⟩, ⟨⟨2, ![n, m]⟩, x2⟩, ⟨⟨2, ![n, m]⟩, x3⟩] h (ix2 p c) 3 (by show (3 : ℕ) < 4; omega) ⟨2, ![n, m]⟩ x3 rfl rfl
      (m + (m + m)) rfl (ix2 p e) hi (by show m + (m + m) + e.val = c.val; rw [hc]; show m + (m + m) + e.val = m * 3 + e.val; omega)

end Concat

/-! ## The reductions along the columns, read at a row -/

section Reductions

/-- Inserting column `k` into the row index `p` of a reduction along axis 1 gives the index `(p, k)`. -/
theorem lift_ix1 {n m : ℕ} (h : (⟨2, ![n, m]⟩ : Shape).Reduces [1] ⟨1, ![n]⟩) (p : Fin n) (k : Fin m) :
    h.lift (ix1 p) k = ix2 p k := by
  funext a
  match a with
  | ⟨0, _⟩ => exact Fin.ext rfl
  | ⟨1, _⟩ => exact Fin.ext rfl

/-- A sum along the columns, read at row `p`: the sum of the row's entries. -/
theorem rowSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ k : Fin m, src (ix2 p k) :=
  (Ideal.multiReduction_add_single src 0x00000000#32 h hφ hacc (ix1 p)).trans
    (Finset.sum_congr rfl fun k _ => congrArg src (lift_ix1 h p k))

/-- A maximum along the columns, read at row `p`: the fold of `max` over the row's entries from the value of the
    starting pattern. -/
theorem rowMax_apply {n m : ℕ} (src : FVec Ideal ⟨2, ![n, m]⟩ .f32) (h : (⟨2, ![n, m]⟩ : Shape).Reduces [1] ⟨1, ![n]⟩)
    (hφ : FKind.Formats .f32) (hacc : (0xFF800000#32 : BitVec 32) = 0xFF800000#32) (p : Fin n) :
    multiReduction .maximumf [1] ⟨1, ![n]⟩ src 0xFF800000#32 h hφ hacc (ix1 p)
      = (Finset.univ : Finset (Fin m)).fold max (Ideal.ofBits .f32 0xFF800000#32) (fun k => src (ix2 p k)) :=
  (Ideal.multiReduction_maximumf_single src 0xFF800000#32 h hφ hacc (ix1 p)).trans
    (congrArg (Finset.fold max (Ideal.ofBits .f32 0xFF800000#32) · (Finset.univ : Finset (Fin m)))
      (funext fun k => congrArg src (lift_ix1 h p k)))

end Reductions

/-! ## The projected tile: the matrix product with the joined weights plus the joined bias row -/

section Projection

/-- Row coordinate of the left operand's index: the output's row. -/
theorem lhs_row (i : S2000x768.Idx) (q : dot_S2000x256_S256x768_S2000x768_1_0_0_1_n_n.contr.Idx) :
    (dot_S2000x256_S256x768_S2000x768_1_0_0_1_n_n.lhsIdx i q 0).val = (i 0).val := by
  unfold DotDims.lhsIdx
  rw [dif_neg (show ¬(0 : Fin S2000x256.rank) ∈ dot_S2000x256_S256x768_S2000x768_1_0_0_1_n_n.lhsBatch by decide),
    dif_pos (show (0 : Fin S2000x256.rank) ∈ dot_S2000x256_S256x768_S2000x768_1_0_0_1_n_n.lhsNonContracting by decide)]
  rfl
/-- Column coordinate of the left operand's index: the contraction coordinate. -/
theorem lhs_col (i : S2000x768.Idx) (q : dot_S2000x256_S256x768_S2000x768_1_0_0_1_n_n.contr.Idx) :
    (dot_S2000x256_S256x768_S2000x768_1_0_0_1_n_n.lhsIdx i q 1).val = (q ⟨0, by decide⟩).val :=
  dot_S2000x256_S256x768_S2000x768_1_0_0_1_n_n.lhsIdx_val_of_single rfl i q
/-- Row coordinate of the right operand's index: the contraction coordinate. -/
theorem rhs_row (i : S2000x768.Idx) (q : dot_S2000x256_S256x768_S2000x768_1_0_0_1_n_n.contr.Idx) :
    (dot_S2000x256_S256x768_S2000x768_1_0_0_1_n_n.rhsIdx i q 0).val = (q ⟨0, by decide⟩).val :=
  dot_S2000x256_S256x768_S2000x768_1_0_0_1_n_n.rhsIdx_val_of_single rfl i q
/-- Column coordinate of the right operand's index: the output's column. -/
theorem rhs_col (i : S2000x768.Idx) (q : dot_S2000x256_S256x768_S2000x768_1_0_0_1_n_n.contr.Idx) :
    (dot_S2000x256_S256x768_S2000x768_1_0_0_1_n_n.rhsIdx i q 1).val = (i 1).val := by
  unfold DotDims.rhsIdx
  rw [dif_neg (show ¬(1 : Fin S256x768.rank) ∈ dot_S2000x256_S256x768_S2000x768_1_0_0_1_n_n.rhsBatch by decide),
    dif_pos (show (1 : Fin S256x768.rank) ∈ dot_S2000x256_S256x768_S2000x768_1_0_0_1_n_n.rhsNonContracting by decide)]
  rfl

/-- The matrix product into the zero accumulator, read at `(p, c)`: row `p` of the left operand against column `c` of
    the right one. -/
theorem matmul_apply (a : FVec Ideal S2000x256 .bf16) (b : FVec Ideal S256x768 .bf16) (p : Fin 2000) (c : Fin 768) :
    matmul dot_S2000x256_S256x768_S2000x768_1_0_0_1_n_n none a b (constant (F := Ideal) S2000x768 .f32 0x00000000#32) (ix2 p c)
      = ∑ k : Fin 256, a (ix2 p k) * b (ix2 k c) := by
  refine (Ideal.matmul_constant_zero_apply dot_S2000x256_S256x768_S2000x768_1_0_0_1_n_n none a b (ix2 p c)).trans ?_
  rw [← Equiv.sum_comp (ValueIdx.contrEquiv1 dot_S2000x256_S256x768_S2000x768_1_0_0_1_n_n 256 rfl rfl).symm]
  refine Finset.sum_congr rfl fun k _ => ?_
  have hk := ValueIdx.contrEquiv1_symm_val dot_S2000x256_S256x768_S2000x768_1_0_0_1_n_n 256 rfl rfl k
  have el : dot_S2000x256_S256x768_S2000x768_1_0_0_1_n_n.lhsIdx (ix2 p c)
      ((ValueIdx.contrEquiv1 dot_S2000x256_S256x768_S2000x768_1_0_0_1_n_n 256 rfl rfl).symm k) = ix2 p k := funext fun ax => Fin.ext (by
    match ax with
    | ⟨0, _⟩ => exact lhs_row _ _
    | ⟨1, _⟩ => exact (lhs_col _ _).trans hk)
  have er : dot_S2000x256_S256x768_S2000x768_1_0_0_1_n_n.rhsIdx (ix2 p c)
      ((ValueIdx.contrEquiv1 dot_S2000x256_S256x768_S2000x768_1_0_0_1_n_n 256 rfl rfl).symm k) = ix2 k c := funext fun ax => Fin.ext (by
    match ax with
    | ⟨0, _⟩ => exact (rhs_row _ _).trans hk
    | ⟨1, _⟩ => exact rhs_col _ _)
  rw [el, er]

/-- The projected tile at `(p, c)`: row `p` of the input against column `c` of the joined weights, plus entry `c` of
    the joined bias row. -/
theorem hqkv_apply (x0 : Vec Ideal S2000x256 .f32) (x1 : Vec Ideal S256x768 .f32) (x2 : Vec Ideal S1x768 .f32)
    (p : Fin 2000) (c : Fin 768) :
    k0_pay2 (F := Ideal) x0 x1 x2 (ix2 p c) = (∑ k : Fin 256, x0 (ix2 p k) * x1 (ix2 k c)) + x2 (ix2 (0 : Fin 1) c) := by
  unfold k0_pay2
  rw [shapeCast_self, shapeCast_self]
  refine congrArg₂ (· + ·) (matmul_apply _ _ p c) (broadcastTo_1b_ab_apply _ _ p c)

end Projection

/-! ## The three sections of the projected tile and their heads -/

section Heads
variable (x0 : Vec Ideal S2000x256 .f32) (x1 : Vec Ideal S256x768 .f32) (x2 : Vec Ideal S1x768 .f32) (p : Fin 2000)

/-- The query section of the projected tile, at `(p, c)`: section 0's affine map of row `p`, at `c`. -/
theorem pay3_apply (c : Fin 256) : k0_pay3 (F := Ideal) x0 x1 x2 (ix2 p c) = tileProj x0 x1 x2 p 0 c := by
  unfold k0_pay3
  exact (slice2_axis1_apply 0 _ _ p c (sec 0 c) (by show 256 * 0 + c.val = 0 + c.val; omega)).trans (hqkv_apply x0 x1 x2 p (sec 0 c))

/-- The key section of the projected tile, at `(p, c)`: section 1's affine map of row `p`, at `c`. -/
theorem pay4_apply (c : Fin 256) : k0_pay4 (F := Ideal) x0 x1 x2 (ix2 p c) = tileProj x0 x1 x2 p 1 c := by
  unfold k0_pay4
  exact (slice2_axis1_apply 256 _ _ p c (sec 1 c) (by show 256 * 1 + c.val = 256 + c.val; omega)).trans (hqkv_apply x0 x1 x2 p (sec 1 c))

/-- The value section of the projected tile, at `(p, c)`: section 2's affine map of row `p`, at `c`. -/
theorem pay5_apply (c : Fin 256) : k0_pay5 (F := Ideal) x0 x1 x2 (ix2 p c) = tileProj x0 x1 x2 p 2 c := by
  unfold k0_pay5
  exact (slice2_axis1_apply 512 _ _ p c (sec 2 c) (by show 256 * 2 + c.val = 512 + c.val; omega)).trans (hqkv_apply x0 x1 x2 p (sec 2 c))

/-- Head 0 of the query section, at `(p, e)`: lane `e` of head 0 of section 0's affine map of row `p`. -/
theorem pay6_apply (e : Fin 64) : k0_pay6 (F := Ideal) x0 x1 x2 (ix2 p e) = tileProj x0 x1 x2 p 0 (col 0 e) := by
  unfold k0_pay6
  exact (slice2_axis1_apply 0 _ _ p e (col 0 e) (by show 64 * 0 + e.val = 0 + e.val; omega)).trans (pay3_apply x0 x1 x2 p (col 0 e))

/-- Head 1 of the query section, at `(p, e)`: lane `e` of head 1 of section 0's affine map of row `p`. -/
theorem pay7_apply (e : Fin 64) : k0_pay7 (F := Ideal) x0 x1 x2 (ix2 p e) = tileProj x0 x1 x2 p 0 (col 1 e) := by
  unfold k0_pay7
  exact (slice2_axis1_apply 64 _ _ p e (col 1 e) (by show 64 * 1 + e.val = 64 + e.val; omega)).trans (pay3_apply x0 x1 x2 p (col 1 e))

/-- Head 2 of the query section, at `(p, e)`: lane `e` of head 2 of section 0's affine map of row `p`. -/
theorem pay8_apply (e : Fin 64) : k0_pay8 (F := Ideal) x0 x1 x2 (ix2 p e) = tileProj x0 x1 x2 p 0 (col 2 e) := by
  unfold k0_pay8
  exact (slice2_axis1_apply 128 _ _ p e (col 2 e) (by show 64 * 2 + e.val = 128 + e.val; omega)).trans (pay3_apply x0 x1 x2 p (col 2 e))

/-- Head 3 of the query section, at `(p, e)`: lane `e` of head 3 of section 0's affine map of row `p`. -/
theorem pay9_apply (e : Fin 64) : k0_pay9 (F := Ideal) x0 x1 x2 (ix2 p e) = tileProj x0 x1 x2 p 0 (col 3 e) := by
  unfold k0_pay9
  exact (slice2_axis1_apply 192 _ _ p e (col 3 e) (by show 64 * 3 + e.val = 192 + e.val; omega)).trans (pay3_apply x0 x1 x2 p (col 3 e))

/-- Head 0 of the key section, at `(p, e)`: lane `e` of head 0 of section 1's affine map of row `p`. -/
theorem pay10_apply (e : Fin 64) : k0_pay10 (F := Ideal) x0 x1 x2 (ix2 p e) = tileProj x0 x1 x2 p 1 (col 0 e) := by
  unfold k0_pay10
  exact (slice2_axis1_apply 0 _ _ p e (col 0 e) (by show 64 * 0 + e.val = 0 + e.val; omega)).trans (pay4_apply x0 x1 x2 p (col 0 e))

/-- Head 1 of the key section, at `(p, e)`: lane `e` of head 1 of section 1's affine map of row `p`. -/
theorem pay11_apply (e : Fin 64) : k0_pay11 (F := Ideal) x0 x1 x2 (ix2 p e) = tileProj x0 x1 x2 p 1 (col 1 e) := by
  unfold k0_pay11
  exact (slice2_axis1_apply 64 _ _ p e (col 1 e) (by show 64 * 1 + e.val = 64 + e.val; omega)).trans (pay4_apply x0 x1 x2 p (col 1 e))

/-- Head 2 of the key section, at `(p, e)`: lane `e` of head 2 of section 1's affine map of row `p`. -/
theorem pay12_apply (e : Fin 64) : k0_pay12 (F := Ideal) x0 x1 x2 (ix2 p e) = tileProj x0 x1 x2 p 1 (col 2 e) := by
  unfold k0_pay12
  exact (slice2_axis1_apply 128 _ _ p e (col 2 e) (by show 64 * 2 + e.val = 128 + e.val; omega)).trans (pay4_apply x0 x1 x2 p (col 2 e))

/-- Head 3 of the key section, at `(p, e)`: lane `e` of head 3 of section 1's affine map of row `p`. -/
theorem pay13_apply (e : Fin 64) : k0_pay13 (F := Ideal) x0 x1 x2 (ix2 p e) = tileProj x0 x1 x2 p 1 (col 3 e) := by
  unfold k0_pay13
  exact (slice2_axis1_apply 192 _ _ p e (col 3 e) (by show 64 * 3 + e.val = 192 + e.val; omega)).trans (pay4_apply x0 x1 x2 p (col 3 e))

/-- Head 0 of the value section, at `(p, e)`: lane `e` of head 0 of section 2's affine map of row `p`. -/
theorem pay14_apply (e : Fin 64) : k0_pay14 (F := Ideal) x0 x1 x2 (ix2 p e) = tileProj x0 x1 x2 p 2 (col 0 e) := by
  unfold k0_pay14
  exact (slice2_axis1_apply 0 _ _ p e (col 0 e) (by show 64 * 0 + e.val = 0 + e.val; omega)).trans (pay5_apply x0 x1 x2 p (col 0 e))

/-- Head 1 of the value section, at `(p, e)`: lane `e` of head 1 of section 2's affine map of row `p`. -/
theorem pay15_apply (e : Fin 64) : k0_pay15 (F := Ideal) x0 x1 x2 (ix2 p e) = tileProj x0 x1 x2 p 2 (col 1 e) := by
  unfold k0_pay15
  exact (slice2_axis1_apply 64 _ _ p e (col 1 e) (by show 64 * 1 + e.val = 64 + e.val; omega)).trans (pay5_apply x0 x1 x2 p (col 1 e))

/-- Head 2 of the value section, at `(p, e)`: lane `e` of head 2 of section 2's affine map of row `p`. -/
theorem pay16_apply (e : Fin 64) : k0_pay16 (F := Ideal) x0 x1 x2 (ix2 p e) = tileProj x0 x1 x2 p 2 (col 2 e) := by
  unfold k0_pay16
  exact (slice2_axis1_apply 128 _ _ p e (col 2 e) (by show 64 * 2 + e.val = 128 + e.val; omega)).trans (pay5_apply x0 x1 x2 p (col 2 e))

/-- Head 3 of the value section, at `(p, e)`: lane `e` of head 3 of section 2's affine map of row `p`. -/
theorem pay17_apply (e : Fin 64) : k0_pay17 (F := Ideal) x0 x1 x2 (ix2 p e) = tileProj x0 x1 x2 p 2 (col 3 e) := by
  unfold k0_pay17
  exact (slice2_axis1_apply 192 _ _ p e (col 3 e) (by show 64 * 3 + e.val = 192 + e.val; omega)).trans (pay5_apply x0 x1 x2 p (col 3 e))

end Heads

/-! ## One head's attention over the four heads of a row, as operations on whole tiles

The body computes, for each query head, four score columns, joins them into rows of four, takes the row maximum, the
exponentials of the shifted scores, their row sum, the quotients, and the sum of the value heads weighted by the four
columns of quotients. Each step is named here once, over any operands, and read at an index. -/

section Attention

/-- The softmax weights of a row of four scores, with the maximum folded from the pattern of -∞. -/
def sm (s : Fin 4 → EReal) (g : Fin 4) : EReal :=
  Ideal.div (Ideal.exp (s g - (Finset.univ : Finset (Fin 4)).fold max negInf s))
    (∑ g' : Fin 4, Ideal.exp (s g' - (Finset.univ : Finset (Fin 4)).fold max negInf s))

/-- The specification's weight is the softmax weight of the row of scores. -/
theorem wt_eq_sm (Q K : Fin 256 → EReal) (h g : Fin 4) : wt Q K h g = sm (score Q K h) g := rfl

/-- The scaled scores of a query head `a` against a key head `b`, one per row, as a column. -/
def scoreCol (a b : FVec Ideal S2000x64 .f32) : FVec Ideal S2000x1 .f32 :=
  mulf (shapeCast S2000x1 (multiReduction .add [1] S2000 (mulf a b) 0x00000000#32 reduces_S2000x64_S2000 (.inl rfl) rfl) shapeCasts_S2000_S2000x1)
    (broadcast S2000x1 (Scalar.ofBits .f32 0x3E000000#32))

/-- At row `p`: the sum over the lanes of the products, times the scale. -/
theorem scoreCol_apply (a b : FVec Ideal S2000x64 .f32) (p : Fin 2000) (u : Fin 1) :
    scoreCol a b (ix2 p u) = (∑ e : Fin 64, a (ix2 p e) * b (ix2 p e)) * scaleC := by
  unfold scoreCol
  show shapeCast S2000x1 _ shapeCasts_S2000_S2000x1 (ix2 p u) * Ideal.ofBits .f32 0x3E000000#32 = _
  rw [shapeCast_a_a1_apply, rowSum_apply]
  rfl

/-- Four columns joined into rows of four. -/
def cat4 (s0 s1 s2 s3 : FVec Ideal S2000x1 .f32) : FVec Ideal S2000x4 .f32 :=
  concatenate S2000x4 1 [⟨S2000x1, s0⟩, ⟨S2000x1, s1⟩, ⟨S2000x1, s2⟩, ⟨S2000x1, s3⟩] concatenates_S2000x1_S2000x1_S2000x1_S2000x1_S2000x4_d1

/-- Entry `g` of row `p` is column `g` at row `p`. -/
theorem cat4_apply (s0 s1 s2 s3 : FVec Ideal S2000x1 .f32) (p : Fin 2000) (g : Fin 4) :
    cat4 s0 s1 s2 s3 (ix2 p g) = (![s0, s1, s2, s3] g) (ix2 p (0 : Fin 1)) :=
  concat4_axis1_apply s0 s1 s2 s3 _ p g g 0 (by show g.val = 1 * g.val + 0; omega)

/-- The row maxima of rows of four, as a column. -/
def maxCol (S : FVec Ideal S2000x4 .f32) : FVec Ideal S2000x1 .f32 :=
  shapeCast S2000x1 (multiReduction .maximumf [1] S2000 S 0xFF800000#32 reduces_S2000x4_S2000 (.inl rfl) rfl) shapeCasts_S2000_S2000x1

theorem maxCol_apply (S : FVec Ideal S2000x4 .f32) (p : Fin 2000) (u : Fin 1) :
    maxCol S (ix2 p u) = (Finset.univ : Finset (Fin 4)).fold max negInf (fun k => S (ix2 p k)) := by
  unfold maxCol
  rw [shapeCast_a_a1_apply, rowMax_apply]

/-- The exponentials of the rows shifted by a column. -/
def expRow (S : FVec Ideal S2000x4 .f32) (M : FVec Ideal S2000x1 .f32) : FVec Ideal S2000x4 .f32 :=
  exp (subf S (broadcastTo S2000x4 M broadcasts_S2000x1_S2000x4))

theorem expRow_apply (S : FVec Ideal S2000x4 .f32) (M : FVec Ideal S2000x1 .f32) (p : Fin 2000) (g : Fin 4) :
    expRow S M (ix2 p g) = Ideal.exp (S (ix2 p g) - M (ix2 p (0 : Fin 1))) := by
  unfold expRow
  show Ideal.exp (S (ix2 p g) - broadcastTo S2000x4 M broadcasts_S2000x1_S2000x4 (ix2 p g)) = _
  rw [broadcastTo_a1_ab_apply]

/-- The row sums of rows of four. -/
def sumVec (E : FVec Ideal S2000x4 .f32) : FVec Ideal S2000 .f32 :=
  multiReduction .add [1] S2000 E 0x00000000#32 reduces_S2000x4_S2000 (.inl rfl) rfl

theorem sumVec_apply (E : FVec Ideal S2000x4 .f32) (p : Fin 2000) : sumVec E (ix1 p) = ∑ k : Fin 4, E (ix2 p k) := by
  unfold sumVec
  rw [rowSum_apply]

/-- The rows divided by a vector of denominators, one per row. -/
def wRow (E : FVec Ideal S2000x4 .f32) (D : FVec Ideal S2000 .f32) : FVec Ideal S2000x4 .f32 :=
  divf E (broadcastTo S2000x4 (shapeCast S2000x1 D shapeCasts_S2000_S2000x1) broadcasts_S2000x1_S2000x4)

theorem wRow_apply (E : FVec Ideal S2000x4 .f32) (D : FVec Ideal S2000 .f32) (p : Fin 2000) (g : Fin 4) :
    wRow E D (ix2 p g) = Ideal.div (E (ix2 p g)) (D (ix1 p)) := by
  unfold wRow
  show Ideal.div (E (ix2 p g)) (broadcastTo S2000x4 (shapeCast S2000x1 D shapeCasts_S2000_S2000x1) broadcasts_S2000x1_S2000x4 (ix2 p g)) = _
  rw [broadcastTo_a1_ab_apply, shapeCast_a_a1_apply]

/-- The softmax weights of the rows of scores `S`. -/
def weights (S : FVec Ideal S2000x4 .f32) : FVec Ideal S2000x4 .f32 :=
  wRow (expRow S (maxCol S)) (sumVec (expRow S (maxCol S)))

theorem weights_apply (S : FVec Ideal S2000x4 .f32) (p : Fin 2000) (g : Fin 4) :
    weights S (ix2 p g) = sm (fun k => S (ix2 p k)) g := by
  unfold weights
  rw [wRow_apply, sumVec_apply]
  simp only [expRow_apply, maxCol_apply]
  rfl

/-- Column `o` of the weights, repeated along the 64 lanes. -/
def wcol (o : ℕ) (W : FVec Ideal S2000x4 .f32) (h : S2000x4.Slices ![0, o] S2000x1) : FVec Ideal S2000x64 .f32 :=
  broadcastTo S2000x64 (extractStridedSlice S2000x1 ![0, o] W h) broadcasts_S2000x1_S2000x64

theorem wcol_apply (o : ℕ) (W : FVec Ideal S2000x4 .f32) (h : S2000x4.Slices ![0, o] S2000x1) (p : Fin 2000) (e : Fin 64)
    (g : Fin 4) (hg : g.val = o) : wcol o W h (ix2 p e) = W (ix2 p g) := by
  unfold wcol
  rw [broadcastTo_a1_ab_apply]
  exact slice2_axis1_apply o W h p 0 g (by show g.val = o + 0; omega)

/-- The value heads weighted by the four columns of `W` and summed, the partial sums taken left to right. -/
def wsum (V0 V1 V2 V3 : FVec Ideal S2000x64 .f32) (W : FVec Ideal S2000x4 .f32) : FVec Ideal S2000x64 .f32 :=
  addf (addf (addf (mulf (wcol 0 W slices_S2000x4_o0_0_S2000x1) V0) (mulf (wcol 1 W slices_S2000x4_o0_1_S2000x1) V1))
    (mulf (wcol 2 W slices_S2000x4_o0_2_S2000x1) V2)) (mulf (wcol 3 W slices_S2000x4_o0_3_S2000x1) V3)

theorem wsum_apply (V0 V1 V2 V3 : FVec Ideal S2000x64 .f32) (W : FVec Ideal S2000x4 .f32) (p : Fin 2000) (e : Fin 64) :
    wsum V0 V1 V2 V3 W (ix2 p e)
      = W (ix2 p (0 : Fin 4)) * V0 (ix2 p e) + W (ix2 p (1 : Fin 4)) * V1 (ix2 p e) + W (ix2 p (2 : Fin 4)) * V2 (ix2 p e)
        + W (ix2 p (3 : Fin 4)) * V3 (ix2 p e) := by
  unfold wsum
  simp only [addf_apply, mulf_apply]
  rw [wcol_apply 0 W _ p e 0 rfl, wcol_apply 1 W _ p e 1 rfl, wcol_apply 2 W _ p e 2 rfl, wcol_apply 3 W _ p e 3 rfl]

/-- One query head's output tile: the scores against the four key heads, their softmax weights, the weighted value heads. -/
def headOut (q k0 k1 k2 k3 v0 v1 v2 v3 : FVec Ideal S2000x64 .f32) : FVec Ideal S2000x64 .f32 :=
  wsum v0 v1 v2 v3 (weights (cat4 (scoreCol q k0) (scoreCol q k1) (scoreCol q k2) (scoreCol q k3)))

/-- If at row `p` the operands hold the lanes of query head `h`, of the four key heads and of the four value heads of
    `Q`, `K`, `V`, the head's output at `(p, d)` is the specification's attention. -/
theorem headOut_apply (q k0 k1 k2 k3 v0 v1 v2 v3 : FVec Ideal S2000x64 .f32) (Q K V : Fin 256 → EReal) (h : Fin 4) (p : Fin 2000)
    (hq : ∀ e, q (ix2 p e) = Q (col h e))
    (hk0 : ∀ e, k0 (ix2 p e) = K (col 0 e)) (hk1 : ∀ e, k1 (ix2 p e) = K (col 1 e))
    (hk2 : ∀ e, k2 (ix2 p e) = K (col 2 e)) (hk3 : ∀ e, k3 (ix2 p e) = K (col 3 e))
    (hv0 : ∀ e, v0 (ix2 p e) = V (col 0 e)) (hv1 : ∀ e, v1 (ix2 p e) = V (col 1 e))
    (hv2 : ∀ e, v2 (ix2 p e) = V (col 2 e)) (hv3 : ∀ e, v3 (ix2 p e) = V (col 3 e)) (d : Fin 64) :
    headOut q k0 k1 k2 k3 v0 v1 v2 v3 (ix2 p d) = attn Q K V h d := by
  have hsc : ∀ (k : FVec Ideal S2000x64 .f32) (g : Fin 4), (∀ e, k (ix2 p e) = K (col g e)) →
      scoreCol q k (ix2 p (0 : Fin 1)) = score Q K h g := fun k g hk => by
    rw [scoreCol_apply]
    simp only [hq, hk]
    rfl
  have hS : (fun g => cat4 (scoreCol q k0) (scoreCol q k1) (scoreCol q k2) (scoreCol q k3) (ix2 p g)) = score Q K h := by
    funext g
    rw [cat4_apply]
    match g with
    | ⟨0, _⟩ => exact hsc k0 0 hk0
    | ⟨1, _⟩ => exact hsc k1 1 hk1
    | ⟨2, _⟩ => exact hsc k2 2 hk2
    | ⟨3, _⟩ => exact hsc k3 3 hk3
  unfold headOut
  rw [wsum_apply]
  simp only [weights_apply, hS, hv0, hv1, hv2, hv3, ← wt_eq_sm]
  unfold attn
  rw [Fin.sum_univ_four]

end Attention

/-! ## The stored tile -/

section Assembly

/-- Four 64-lane tiles joined into the 256 columns. -/
def out4 (h0 h1 h2 h3 : FVec Ideal S2000x64 .f32) : FVec Ideal S2000x256 .f32 :=
  concatenate S2000x256 1 [⟨S2000x64, h0⟩, ⟨S2000x64, h1⟩, ⟨S2000x64, h2⟩, ⟨S2000x64, h3⟩]
    concatenates_S2000x64_S2000x64_S2000x64_S2000x64_S2000x256_d1

/-- Lane `d` of head `h` of the joined tile is lane `d` of piece `h`. -/
theorem out4_apply (h0 h1 h2 h3 : FVec Ideal S2000x64 .f32) (p : Fin 2000) (h : Fin 4) (d : Fin 64) :
    out4 h0 h1 h2 h3 (ix2 p (col h d)) = (![h0, h1, h2, h3] h) (ix2 p d) :=
  concat4_axis1_apply h0 h1 h2 h3 _ p (col h d) h d (Cert.AttnSpec.col_val h d)

variable (x0 : Vec Ideal S2000x256 .f32) (x1 : Vec Ideal S256x768 .f32) (x2 : Vec Ideal S1x768 .f32)

/-- The stored tile is the four heads' outputs joined: each head's scores against the four key heads, their softmax
    weights, and the weighted sum of the four value heads. The body's text is this composition, value by value. -/
theorem tileVal_eq : Tiles.tileVal (F := Ideal) x0 x1 x2
    = out4 (headOut (k0_pay6 (F := Ideal) x0 x1 x2) (k0_pay10 (F := Ideal) x0 x1 x2) (k0_pay11 (F := Ideal) x0 x1 x2) (k0_pay12 (F := Ideal) x0 x1 x2) (k0_pay13 (F := Ideal) x0 x1 x2) (k0_pay14 (F := Ideal) x0 x1 x2) (k0_pay15 (F := Ideal) x0 x1 x2) (k0_pay16 (F := Ideal) x0 x1 x2) (k0_pay17 (F := Ideal) x0 x1 x2))
        (headOut (k0_pay7 (F := Ideal) x0 x1 x2) (k0_pay10 (F := Ideal) x0 x1 x2) (k0_pay11 (F := Ideal) x0 x1 x2) (k0_pay12 (F := Ideal) x0 x1 x2) (k0_pay13 (F := Ideal) x0 x1 x2) (k0_pay14 (F := Ideal) x0 x1 x2) (k0_pay15 (F := Ideal) x0 x1 x2) (k0_pay16 (F := Ideal) x0 x1 x2) (k0_pay17 (F := Ideal) x0 x1 x2))
        (headOut (k0_pay8 (F := Ideal) x0 x1 x2) (k0_pay10 (F := Ideal) x0 x1 x2) (k0_pay11 (F := Ideal) x0 x1 x2) (k0_pay12 (F := Ideal) x0 x1 x2) (k0_pay13 (F := Ideal) x0 x1 x2) (k0_pay14 (F := Ideal) x0 x1 x2) (k0_pay15 (F := Ideal) x0 x1 x2) (k0_pay16 (F := Ideal) x0 x1 x2) (k0_pay17 (F := Ideal) x0 x1 x2))
        (headOut (k0_pay9 (F := Ideal) x0 x1 x2) (k0_pay10 (F := Ideal) x0 x1 x2) (k0_pay11 (F := Ideal) x0 x1 x2) (k0_pay12 (F := Ideal) x0 x1 x2) (k0_pay13 (F := Ideal) x0 x1 x2) (k0_pay14 (F := Ideal) x0 x1 x2) (k0_pay15 (F := Ideal) x0 x1 x2) (k0_pay16 (F := Ideal) x0 x1 x2) (k0_pay17 (F := Ideal) x0 x1 x2)) := rfl

/-- **The stored tile at an index**: at row `p`, lane `d` of head `h`, the specification's tile function. -/
theorem tileVal_apply (p : Fin 2000) (h : Fin 4) (d : Fin 64) :
    Cert.KernelIdeal.Tiles.tileVal (F := Ideal) x0 x1 x2 (ValueIdx.ix2 p (Cert.AttnSpec.col h d))
      = Cert.AttnSpec.tile x0 x1 x2 p h d := by
  rw [tileVal_eq, out4_apply]
  unfold tile
  match h with
  | ⟨0, _⟩ =>
    exact headOut_apply _ _ _ _ _ _ _ _ _ (tileProj x0 x1 x2 p 0) (tileProj x0 x1 x2 p 1) (tileProj x0 x1 x2 p 2) 0 p
      (pay6_apply x0 x1 x2 p) (pay10_apply x0 x1 x2 p) (pay11_apply x0 x1 x2 p) (pay12_apply x0 x1 x2 p) (pay13_apply x0 x1 x2 p)
      (pay14_apply x0 x1 x2 p) (pay15_apply x0 x1 x2 p) (pay16_apply x0 x1 x2 p) (pay17_apply x0 x1 x2 p) d
  | ⟨1, _⟩ =>
    exact headOut_apply _ _ _ _ _ _ _ _ _ (tileProj x0 x1 x2 p 0) (tileProj x0 x1 x2 p 1) (tileProj x0 x1 x2 p 2) 1 p
      (pay7_apply x0 x1 x2 p) (pay10_apply x0 x1 x2 p) (pay11_apply x0 x1 x2 p) (pay12_apply x0 x1 x2 p) (pay13_apply x0 x1 x2 p)
      (pay14_apply x0 x1 x2 p) (pay15_apply x0 x1 x2 p) (pay16_apply x0 x1 x2 p) (pay17_apply x0 x1 x2 p) d
  | ⟨2, _⟩ =>
    exact headOut_apply _ _ _ _ _ _ _ _ _ (tileProj x0 x1 x2 p 0) (tileProj x0 x1 x2 p 1) (tileProj x0 x1 x2 p 2) 2 p
      (pay8_apply x0 x1 x2 p) (pay10_apply x0 x1 x2 p) (pay11_apply x0 x1 x2 p) (pay12_apply x0 x1 x2 p) (pay13_apply x0 x1 x2 p)
      (pay14_apply x0 x1 x2 p) (pay15_apply x0 x1 x2 p) (pay16_apply x0 x1 x2 p) (pay17_apply x0 x1 x2 p) d
  | ⟨3, _⟩ =>
    exact headOut_apply _ _ _ _ _ _ _ _ _ (tileProj x0 x1 x2 p 0) (tileProj x0 x1 x2 p 1) (tileProj x0 x1 x2 p 2) 3 p
      (pay9_apply x0 x1 x2 p) (pay10_apply x0 x1 x2 p) (pay11_apply x0 x1 x2 p) (pay12_apply x0 x1 x2 p) (pay13_apply x0 x1 x2 p)
      (pay14_apply x0 x1 x2 p) (pay15_apply x0 x1 x2 p) (pay16_apply x0 x1 x2 p) (pay17_apply x0 x1 x2 p) d

end Assembly

end Cert.KernelIdeal.TileValue

end
-- ==== Proof.RowsIdeal.lean ====
/-
  From tiles to the whole array: the 250 tiles' written-back blocks are the 250 row blocks of one function of the
  argument arrays, the specification's `G`, and they cover the array.
-/
import proofs.«117268_j25202868093362_2_alg».proof.Proof.HostOperands
import proofs.«117268_j25202868093362_2_alg».proof.Proof.TileValue

set_option maxRecDepth 16384

noncomputable section

namespace Cert.KernelIdeal.Rows

open Idealize.ShloMosaic Idealize.ShloMosaic.TcCoe Idealize.ShloMosaic.ValueIdx
open Idealize.SL.Sem Idealize.ShloMosaic.StableHlo
open Idealize.ShloMosaic.Pipeline (Dat Cfg Window)
open Cert.KernelIdeal Cert.KernelIdeal.Gen Cert.KernelIdeal.Tiles Cert.KernelIdeal.TileValue Cert.AttnSpec

variable (m : (ℓ : Loc nD τ sig) → Buf (Elt Ideal) ℓ) (ρ : Dev nD → PrngReg)

theorem hz : (![0, 0] : Fin 2 → Nat) = fun _ => 0 := funext fun a => by fin_cases a <;> rfl

/-- The result as one function of the launch contents: the specification at the input, and the query, key and value
    sections' weights and biases. -/
def Gk (c : Dev nD) : S500000x256.Idx → EReal :=
  G (m ((c : Thread nD τ).loc main_arg0)) (Wsec m c 0) (bsec m c 0) (Wsec m c 1) (bsec m c 1) (Wsec m c 2) (bsec m c 2)

/-- The specification at row `n`, column `64·h + d`: head `h`, lane `d`. -/
theorem G_at (H : FVec Ideal ⟨2, ![500000, 256]⟩ .f32)
    (Wq : FVec Ideal ⟨2, ![256, 256]⟩ .f32) (bq : FVec Ideal ⟨1, ![256]⟩ .f32)
    (Wk : FVec Ideal ⟨2, ![256, 256]⟩ .f32) (bk : FVec Ideal ⟨1, ![256]⟩ .f32)
    (Wv : FVec Ideal ⟨2, ![256, 256]⟩ .f32) (bv : FVec Ideal ⟨1, ![256]⟩ .f32)
    (n : Fin 500000) (h : Fin 4) (d : Fin 64) :
    G H Wq bq Wk bk Wv bv (ix2 n (col h d))
      = attn (proj (fun k => H (ix2 n k)) (fun k c => Wq (ix2 k c)) (fun c => bq (ix1 c)))
          (proj (fun k => H (ix2 n k)) (fun k c => Wk (ix2 k c)) (fun c => bk (ix1 c)))
          (proj (fun k => H (ix2 n k)) (fun k c => Wv (ix2 k c)) (fun c => bv (ix1 c))) h d := by
  unfold G
  dsimp only
  have e1 : (⟨((ix2 n (col h d) : (⟨2, ![500000, 256]⟩ : Shape).Idx) 1).val / 64, by have := h.isLt; have := d.isLt; show (64 * h.val + d.val) / 64 < 4; omega⟩ : Fin 4) = h :=
    Fin.ext (by have := d.isLt; show (64 * h.val + d.val) / 64 = h.val; omega)
  have e2 : (⟨((ix2 n (col h d) : (⟨2, ![500000, 256]⟩ : Shape).Idx) 1).val % 64, Nat.mod_lt _ (by norm_num)⟩ : Fin 64) = d :=
    Fin.ext (by have := d.isLt; show (64 * h.val + d.val) % 64 = d.val; omega)
  rw [e1, e2]

/-- A column of a 256-wide row is a lane of a head. -/
theorem col_surj (q : Fin 256) : ∃ (h : Fin 4) (d : Fin 64), q = col h d :=
  ⟨⟨q.val / 64, by have := q.isLt; omega⟩, ⟨q.val % 64, Nat.mod_lt _ (by norm_num)⟩,
    Fin.ext (by show q.val = 64 * (q.val / 64) + q.val % 64; omega)⟩

/-- Row `p` of tile `t` is row `2000·t + p` of the array. -/
def rowOf (t : Fin cfg0.N) (p : Fin 2000) : Fin 500000 :=
  ⟨2000 * t.val + p.val, by have : t.val < 250 := t.isLt; have := p.isLt; omega⟩

/-- Section `s`'s affine map of row `p` of tile `t`, from the blocks the body is handed, is that map of row
    `2000·t + p` of the input with section `s`'s weights and bias as launched. -/
theorem tileProj_blk (c : Dev nD) (t : Fin cfg0.N) (p : Fin 2000) (s : Fin 3) :
    tileProj (iblk m c 0 t) (iblk m c 1 t) (iblk m c 2 t) p s
      = proj (fun k => m ((c : Thread nD τ).loc main_arg0) (ix2 (rowOf t p) k)) (fun k c' => Wsec m c s (ix2 k c')) (fun c' => bsec m c s (ix1 c')) := by
  obtain ⟨e00, e01, e10, e11, e20, e21, -, -⟩ := idx_facts t
  unfold tileProj
  have h0 : ∀ k : Fin 256, iblk m c 0 t (ix2 p k) = m ((c : Thread nD τ).loc main_arg0) (ix2 (rowOf t p) k) := fun k => by
    show V m c main_arg0 (((cfg0.win 0).blk t).view.emb (ix2 p k)) = _
    rw [V_main_arg0]
    refine congrArg _ (funext fun a => Fin.ext ?_)
    match a with
    | ⟨0, _⟩ => show win0_0.index t (0 : Fin 2) * 2000 + 1 * p.val = 2000 * t.val + p.val; omega
    | ⟨1, _⟩ => show win0_0.index t (1 : Fin 2) * 256 + 1 * k.val = k.val; omega
  have h1 : ∀ (k : Fin 256) (c' : Fin 256), iblk m c 1 t (ix2 k (sec s c')) = Wsec m c s (ix2 k c') := fun k c' => by
    show V m c main_v0 (((cfg0.win 1).blk t).view.emb (ix2 k (sec s c'))) = _
    rw [← V_v0_apply m c k s c']
    refine congrArg _ (funext fun a => Fin.ext ?_)
    match a with
    | ⟨0, _⟩ => show win0_1.index t (0 : Fin 2) * 256 + 1 * k.val = k.val; omega
    | ⟨1, _⟩ => show win0_1.index t (1 : Fin 2) * 768 + 1 * (sec s c').val = (sec s c').val; omega
  have h2 : ∀ c' : Fin 256, iblk m c 2 t (ix2 (0 : Fin 1) (sec s c')) = bsec m c s (ix1 c') := fun c' => by
    show V m c main_v2 (((cfg0.win 2).blk t).view.emb (ix2 (0 : Fin 1) (sec s c'))) = _
    rw [← V_v2_apply m c s c']
    refine congrArg _ (funext fun a => Fin.ext ?_)
    match a with
    | ⟨0, _⟩ => show win0_2.index t (0 : Fin 2) * 1 + 1 * 0 = 0; omega
    | ⟨1, _⟩ => show win0_2.index t (1 : Fin 2) * 768 + 1 * (sec s c').val = (sec s c').val; omega
  simp only [h0, h1, h2]

/-- What tile `t` writes back is block `t` of `Gk`. -/
theorem flushed_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after3]
  unfold tileOut
  rw [View.canon_unit_zero hz]
  simp only [View.ld_unit_zero (S := S2000x256) hz, View.ld_unit_zero (S := S256x768) hz, View.ld_unit_zero (S := S1x768) hz]
  funext j
  obtain ⟨p, q, rfl⟩ : ∃ (p : Fin 2000) (q : Fin 256), j = ix2 p q := ⟨j 0, j 1, eq_ix2 j⟩
  obtain ⟨h, d, rfl⟩ := col_surj q
  show tileVal (iblk m c 0 t) (iblk m c 1 t) (iblk m c 2 t) (ix2 p (col h d)) = Gk m c (((cfg0.win 3).blk t).view.emb (ix2 p (col h d)))
  obtain ⟨-, -, -, -, -, -, e30, e31⟩ := idx_facts t
  have he : ((cfg0.win 3).blk t).view.emb (ix2 p (col h d)) = ix2 (rowOf t p) (col h d) := funext fun a => Fin.ext (by
    match a with
    | ⟨0, _⟩ => show win0_3.index t (0 : Fin 2) * 2000 + 1 * p.val = 2000 * t.val + p.val; omega
    | ⟨1, _⟩ => show win0_3.index t (1 : Fin 2) * 256 + 1 * (col h d).val = (col h d).val; omega)
  rw [he, tileVal_apply]
  unfold Gk tile
  rw [G_at, tileProj_blk, tileProj_blk, tileProj_blk]

/-! ## The blocks cover the array -/

theorem mem_blk (t : Fin cfg0.N) (i : S500000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v3).slice (win0_3.rect t)).set ↔ _
  rw [View.set_slice_whole, Rect.mem_set_unit]
  exact Iff.rfl

/-- Row `n` lies in the block of tile `n / 2000`, which is written back. -/
theorem cover (i : S500000x256.Idx) : ∃ t : Fin cfg0.N, (cfg0.win 3).flush t = true ∧ i ∈ ((cfg0.win 3).blk t).view.set := by
  have hi0 : (i 0).val < 500000 := (i 0).isLt
  have hi1 : (i 1).val < 256 := (i 1).isLt
  have hN : cfg0.N = 250 := N_0
  obtain ⟨t, ht⟩ : ∃ t : Fin cfg0.N, t.val = (i 0).val / 2000 := ⟨⟨(i 0).val / 2000, by rw [hN]; omega⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- The result array after the run is `Gk`. -/
theorem final (c : Dev nD) : (dats m 0 c).arrAt 3 cfg0.N = Gk m c :=
  (dats m 0 c).arrAt_eq_of_cover 3 (Gk m c) (fun t _ => flushed_eq m c t) cover

/-! ## The run, with the result named -/

theorem run : θ_run defs (onTc (τ := τ) (main (F := Ideal))) ⟨m, fun _ => 0, ρ⟩ (fun r => ∀ c : Dev nD,
      r.2.mem ((c.tc : Thread nD τ).loc main_v3) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Rows

end
-- ==== Proof.RefRows.lean ====
/-
  The reference's result, read index by index, is the attention function of the specification.

  Row `n` of the input goes through three affine maps (query, key, value); the 256 entries of each are read as
  4 heads of 64 lanes; the scaled scores of head `h` against the four heads of the same row, their maximum, the
  shifted exponentials, their sum, the weights, and the weighted sum of the value heads are each read at an index
  and identified with the specification's function of the same name.
-/
import proofs.«117268_j25202868093362_2_alg».proof.Proof.Gen.ReferenceIdeal.Read
import proofs.«117268_j25202868093362_2_alg».proof.Proof.Spec

noncomputable section

namespace Cert.ReferenceIdeal.Rows

open Cert.ReferenceIdeal Cert.ReferenceIdeal.Gen Idealize.ShloMosaic Idealize.ShloMosaic.ValueIdx Idealize.ShloMosaic.TcCoe Idealize.SL.Sem Idealize.ShloMosaic.StableHlo
open Cert.AttnSpec

/-- The affine map `x·W + b` of row `n` of `x0`, as a function of the column. -/
abbrev P (x0 : (⟨S500000x256, .f32⟩ : BufTy).Contents (Elt Ideal)) (W : (⟨S256x256, .f32⟩ : BufTy).Contents (Elt Ideal)) (b : (⟨S256, .f32⟩ : BufTy).Contents (Elt Ideal)) (n : Fin 500000) : Fin 256 → EReal :=
  proj (fun k => x0 (ix2 n k)) (fun k c => W (ix2 k c)) (fun c => b (ix1 c))

/-! ## The three affine maps -/

/-- Entry `c` of row `n` of the key stage (the product with the weight matrix plus the broadcast bias)
    is the affine map of row `n`. -/
theorem key_at (x0 : (⟨S500000x256, .f32⟩ : BufTy).Contents (Elt Ideal)) (W : (⟨S256x256, .f32⟩ : BufTy).Contents (Elt Ideal)) (b : (⟨S256, .f32⟩ : BufTy).Contents (Elt Ideal)) (n : Fin 500000) (c : Fin 256) :
    Read.val_main_v3 (F := Ideal) x0 W b (ix2 n c) = P x0 W b n c := by
  rw [Read.val_main_v3_apply, Read.val_main_v0_apply, Read.val_main_v2_apply, Read.val_main_v1_apply, Ideal.addf_def]
  have e1 : ∀ k : Fin 256, Read.lidx_main_v0 (ix2 n c) k = ix2 n k := fun k => funext fun a => by
    match a with | ⟨0, _⟩ => rfl | ⟨1, _⟩ => rfl
  have e2 : ∀ k : Fin 256, Read.ridx_main_v0 (ix2 n c) k = ix2 k c := fun k => funext fun a => by
    match a with | ⟨0, _⟩ => rfl | ⟨1, _⟩ => rfl
  have e3 : Read.idx_main_v1 (Read.idx_main_v2 (ix2 n c)) = ix1 c := funext fun a => by
    match a with | ⟨0, _⟩ => rfl
  simp only [e1, e2, e3]
  rfl

/-- Entry `c` of row `n` of the query stage (the product with the weight matrix plus the broadcast bias)
    is the affine map of row `n`. -/
theorem query_at (x0 : (⟨S500000x256, .f32⟩ : BufTy).Contents (Elt Ideal)) (W : (⟨S256x256, .f32⟩ : BufTy).Contents (Elt Ideal)) (b : (⟨S256, .f32⟩ : BufTy).Contents (Elt Ideal)) (n : Fin 500000) (c : Fin 256) :
    Read.val_main_v8 (F := Ideal) x0 W b (ix2 n c) = P x0 W b n c := by
  rw [Read.val_main_v8_apply, Read.val_main_v5_apply, Read.val_main_v7_apply, Read.val_main_v6_apply, Ideal.addf_def]
  have e1 : ∀ k : Fin 256, Read.lidx_main_v5 (ix2 n c) k = ix2 n k := fun k => funext fun a => by
    match a with | ⟨0, _⟩ => rfl | ⟨1, _⟩ => rfl
  have e2 : ∀ k : Fin 256, Read.ridx_main_v5 (ix2 n c) k = ix2 k c := fun k => funext fun a => by
    match a with | ⟨0, _⟩ => rfl | ⟨1, _⟩ => rfl
  have e3 : Read.idx_main_v6 (Read.idx_main_v7 (ix2 n c)) = ix1 c := funext fun a => by
    match a with | ⟨0, _⟩ => rfl
  simp only [e1, e2, e3]
  rfl

/-- Entry `c` of row `n` of the value stage (the product with the weight matrix plus the broadcast bias)
    is the affine map of row `n`. -/
theorem value_at (x0 : (⟨S500000x256, .f32⟩ : BufTy).Contents (Elt Ideal)) (W : (⟨S256x256, .f32⟩ : BufTy).Contents (Elt Ideal)) (b : (⟨S256, .f32⟩ : BufTy).Contents (Elt Ideal)) (n : Fin 500000) (c : Fin 256) :
    Read.val_main_v13 (F := Ideal) x0 W b (ix2 n c) = P x0 W b n c := by
  rw [Read.val_main_v13_apply, Read.val_main_v10_apply, Read.val_main_v12_apply, Read.val_main_v11_apply, Ideal.addf_def]
  have e1 : ∀ k : Fin 256, Read.lidx_main_v10 (ix2 n c) k = ix2 n k := fun k => funext fun a => by
    match a with | ⟨0, _⟩ => rfl | ⟨1, _⟩ => rfl
  have e2 : ∀ k : Fin 256, Read.ridx_main_v10 (ix2 n c) k = ix2 k c := fun k => funext fun a => by
    match a with | ⟨0, _⟩ => rfl | ⟨1, _⟩ => rfl
  have e3 : Read.idx_main_v11 (Read.idx_main_v12 (ix2 n c)) = ix1 c := funext fun a => by
    match a with | ⟨0, _⟩ => rfl
  simp only [e1, e2, e3]
  rfl

/-! ## Heads and lanes -/

/-- Lane `d` of head `h` of row `n` of the reshaped array is column `64·h + d` of row `n`. -/
theorem idx_v4 (n : Fin 500000) (h : Fin 4) (d : Fin 64) : Read.idx_main_v4 (ix3 n h d) = ix2 n (col h d) :=
  funext fun a => Fin.ext (by
    have hn := n.isLt; have hh := h.isLt; have hd := d.isLt
    match a with
    | ⟨0, _⟩ => show ((n.val * 4 + h.val) * 64 + d.val) / 256 = n.val; omega
    | ⟨1, _⟩ => show ((n.val * 4 + h.val) * 64 + d.val) % 256 = 64 * h.val + d.val; omega)

/-- Lane `d` of head `h` of row `n` of the reshaped array is column `64·h + d` of row `n`. -/
theorem idx_v9 (n : Fin 500000) (h : Fin 4) (d : Fin 64) : Read.idx_main_v9 (ix3 n h d) = ix2 n (col h d) :=
  funext fun a => Fin.ext (by
    have hn := n.isLt; have hh := h.isLt; have hd := d.isLt
    match a with
    | ⟨0, _⟩ => show ((n.val * 4 + h.val) * 64 + d.val) / 256 = n.val; omega
    | ⟨1, _⟩ => show ((n.val * 4 + h.val) * 64 + d.val) % 256 = 64 * h.val + d.val; omega)

/-- Lane `d` of head `h` of row `n` of the reshaped array is column `64·h + d` of row `n`. -/
theorem idx_v14 (n : Fin 500000) (h : Fin 4) (d : Fin 64) : Read.idx_main_v14 (ix3 n h d) = ix2 n (col h d) :=
  funext fun a => Fin.ext (by
    have hn := n.isLt; have hh := h.isLt; have hd := d.isLt
    match a with
    | ⟨0, _⟩ => show ((n.val * 4 + h.val) * 64 + d.val) / 256 = n.val; omega
    | ⟨1, _⟩ => show ((n.val * 4 + h.val) * 64 + d.val) % 256 = 64 * h.val + d.val; omega)

/-! ## The scores -/

/-- The scaled score of query head `h` against key head `g` in row `n`. -/
theorem score_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h g : Fin 4) :
    Read.val_main_v17 (F := Ideal) x0 x1 x2 x3 x4 (ix3 n h g) = score (P x0 x3 x4 n) (P x0 x1 x2 n) h g := by
  rw [Read.val_main_v17_apply, Read.val_main_v15_apply, Read.val_main_v16_apply, Read.val_main_cst_apply, Ideal.mulf_def, Ideal.ofBits_def]
  refine congrArg (· * scaleC) (Finset.sum_congr rfl fun e _ => ?_)
  have e1 : Read.lidx_main_v15 (ix3 n h g) e = ix3 n h e := funext fun a => by
    match a with | ⟨0, _⟩ => rfl | ⟨1, _⟩ => rfl | ⟨2, _⟩ => rfl
  have e2 : Read.ridx_main_v15 (ix3 n h g) e = ix3 n g e := funext fun a => by
    match a with | ⟨0, _⟩ => rfl | ⟨1, _⟩ => rfl | ⟨2, _⟩ => rfl
  rw [e1, e2, Read.val_main_v9_apply, Read.val_main_v4_apply, idx_v9, idx_v4, query_at, key_at]

/-! ## The row maximum -/

/-- The index over `(n, h)` with `g` put back on the reduced axis is `(n, h, g)`. -/
theorem lift_at (hr : S500000x4x4.Reduces [2] S500000x4) (n : Fin 500000) (h g : Fin 4) :
    hr.lift (ix2 n h) g = ix3 n h g := by
  funext c; apply Fin.ext; fin_cases c <;> rfl

/-- The fold of `max` over the four scores of head `h`, from the printed starting value. -/
theorem fold_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h : Fin 4) :
    Read.val_main_v18 (F := Ideal) x0 x1 x2 x3 x4 (ix2 n h) = rowMax (P x0 x3 x4 n) (P x0 x1 x2 n) h := by
  have hr : S500000x4x4.Reduces [2] S500000x4 := by decide
  unfold Read.val_main_v18
  rw [Host.reduce_eq_fold_single FloatOps.maximumf _ _ reducesTo_S500000x4x4_S500000x4_d2 hr h_S_]
  have hf : (fun g : Fin 4 => Read.val_main_v17 (F := Ideal) x0 x1 x2 x3 x4 (hr.lift (ix2 n h) g)) = score (P x0 x3 x4 n) (P x0 x1 x2 n) h :=
    funext fun g => by rw [lift_at, score_at]
  exact congrArg (fun f => Finset.fold max negInf f (Finset.univ : Finset (Fin 4))) hf

/-- Taking the maximum with the starting value once more changes nothing: the fold is already above it. -/
theorem rowMax_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h : Fin 4) :
    Read.val_main_v20 (F := Ideal) x0 x1 x2 x3 x4 (ix2 n h) = rowMax (P x0 x3 x4 n) (P x0 x1 x2 n) h := by
  rw [Read.val_main_v20_apply, Read.val_main_v19_apply, Read.val_main_cst_1_apply, fold_at, Ideal.maximumf_def, Ideal.ofBits_def]
  unfold rowMax
  exact max_eq_right ((Finset.le_fold_max _).2 (Or.inl le_rfl))

/-! ## The weights -/

/-- The shifted exponential of the score of `(h, g)`. -/
theorem ex_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h g : Fin 4) :
    Read.val_main_v24 (F := Ideal) x0 x1 x2 x3 x4 (ix3 n h g) = ex (P x0 x3 x4 n) (P x0 x1 x2 n) h g := by
  have e : Read.idx_main_v21 (Read.idx_main_v22 (ix3 n h g)) = ix2 n h := funext fun a => by
    match a with | ⟨0, _⟩ => rfl | ⟨1, _⟩ => rfl
  rw [Read.val_main_v24_apply, Read.val_main_v23_apply, Read.val_main_v22_apply, Read.val_main_v21_apply, e, rowMax_at, score_at,
    Ideal.subf_def, Ideal.hostUnary_exp_def]
  rfl

/-- The sum of the four shifted exponentials of head `h` (the sum starts from the zero word). -/
theorem den_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h : Fin 4) :
    Read.val_main_v25 (F := Ideal) x0 x1 x2 x3 x4 (ix2 n h) = den (P x0 x3 x4 n) (P x0 x1 x2 n) h := by
  rw [Read.val_main_v25_apply, Read.val_main_cst_2_apply, Ideal.ofBits_def, Ideal.ofBits_zero_f32, zero_add]
  refine Finset.sum_congr rfl fun g _ => ?_
  have e : Read.idx_main_v25 (ix2 n h) g = ix3 n h g := funext fun a => by
    match a with | ⟨0, _⟩ => rfl | ⟨1, _⟩ => rfl | ⟨2, _⟩ => rfl
  rw [e, ex_at]

/-- The attention weight of key head `g` for query head `h`. -/
theorem wt_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (n : Fin 500000) (h g : Fin 4) :
    Read.val_main_v28 (F := Ideal) x0 x1 x2 x3 x4 (ix3 n h g) = wt (P x0 x3 x4 n) (P x0 x1 x2 n) h g := by
  have e : Read.idx_main_v26 (Read.idx_main_v27 (ix3 n h g)) = ix2 n h := funext fun a => by
    match a with | ⟨0, _⟩ => rfl | ⟨1, _⟩ => rfl
  rw [Read.val_main_v28_apply, Read.val_main_v27_apply, Read.val_main_v26_apply, e, den_at, ex_at, Ideal.hostDivf_def]
  rfl

/-! ## The output -/

/-- Lane `d` of head `h` of row `n` of the output: the weighted sum of lane `d` of the four value heads. -/
theorem attn_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (n : Fin 500000) (h : Fin 4) (d : Fin 64) :
    Read.val_main_v29 (F := Ideal) x0 x1 x2 x3 x4 x5 x6 (ix3 n h d) = attn (P x0 x3 x4 n) (P x0 x1 x2 n) (P x0 x5 x6 n) h d := by
  rw [Read.val_main_v29_apply]
  refine Finset.sum_congr rfl fun g _ => ?_
  have e1 : Read.lidx_main_v29 (ix3 n h d) g = ix3 n h g := funext fun a => by
    match a with | ⟨0, _⟩ => rfl | ⟨1, _⟩ => rfl | ⟨2, _⟩ => rfl
  have e2 : Read.ridx_main_v29 (ix3 n h d) g = ix3 n g d := funext fun a => by
    match a with | ⟨0, _⟩ => rfl | ⟨1, _⟩ => rfl | ⟨2, _⟩ => rfl
  rw [e1, e2, wt_at, Read.val_main_v14_apply, idx_v14, value_at]

/-- Column `j` of row `n` of the result is lane `j % 64` of head `j / 64`. -/
theorem idx_v30 (n : Fin 500000) (j : Fin 256) :
    Read.idx_main_v30 (ix2 n j)
      = ix3 n (⟨j.val / 64, by have := j.isLt; omega⟩ : Fin 4) (⟨j.val % 64, Nat.mod_lt _ (by norm_num)⟩ : Fin 64) :=
  funext fun a => Fin.ext (by
    have h0 := n.isLt; have h1 := j.isLt
    match a with
    | ⟨0, _⟩ => show (n.val * 256 + j.val) / 256 = n.val; omega
    | ⟨1, _⟩ => show (n.val * 256 + j.val) / 64 % 4 = j.val / 64; omega
    | ⟨2, _⟩ => show (n.val * 256 + j.val) % 64 = j.val % 64; omega)

/-- The last stage, as a function of the seven argument arrays, is the specification's function. -/
theorem out_at (x0 : (⟨S500000x256, .f32⟩ : BufTy).Contents (Elt Ideal)) (x1 : (⟨S256x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (i : S500000x256.Idx) :
    Read.val_main_v30 (F := Ideal) x0 x1 x2 x3 x4 x5 x6 i = G x0 x3 x4 x1 x2 x5 x6 i := by
  obtain ⟨n, j, rfl⟩ : ∃ (n : Fin 500000) (j : Fin 256), i = ix2 n j := ⟨i 0, i 1, eq_ix2 i⟩
  rw [Read.val_main_v30_apply, idx_v30, attn_at]
  rfl

/-- The reference's result is the specification's function of the seven argument arrays. -/
theorem ref_eq_G (m : (ℓ : Loc nD τ sig) → Buf (Elt Ideal) ℓ) (c : Dev nD) :
    Cert.ReferenceIdeal.Value.res_main_v30 (F := Ideal) m c
      = G (m ((c.tc : Thread nD τ).loc main_arg0)) (m ((c.tc : Thread nD τ).loc main_arg3)) (m ((c.tc : Thread nD τ).loc main_arg4))
          (m ((c.tc : Thread nD τ).loc main_arg1)) (m ((c.tc : Thread nD τ).loc main_arg2))
          (m ((c.tc : Thread nD τ).loc main_arg5)) (m ((c.tc : Thread nD τ).loc main_arg6)) := by
  funext i
  rw [Read.val_main_v30_eq]
  exact out_at _ _ _ _ _ _ _ i

end Cert.ReferenceIdeal.Rows

end
-- ==== Proof.lean ====
/-
  The claim: a kernel that projects each row of the input to query, key and value rows with one wide matrix product
  and lets the four heads of a row attend to one another, against the same computation written with three products,
  reshapes and two batched contractions.

  Both programs, read over the extended reals, compute the specification's `G` (Proof/Spec.lean) of the argument
  arrays: the kernel tile by tile (Proof/TileValue*.lean reads the stored value at an entry, Proof/RowsIdeal.lean
  puts the 250 tiles together, Proof/HostOperands.lean reads the joined weights and biases the host lays out), the
  reference operation by operation (Proof/RefRows.lean). No step uses more than commutativity and associativity of
  the sums, so the precondition is never opened. The three frames are the runs themselves with the results dropped.
-/
import proofs.«117268_j25202868093362_2_alg».proof.Defs
import proofs.«117268_j25202868093362_2_alg».proof.Proof.Gen.Kernel
import proofs.«117268_j25202868093362_2_alg».proof.Proof.Gen.KernelIdeal
import proofs.«117268_j25202868093362_2_alg».proof.Proof.Gen.ReferenceIdeal
import proofs.«117268_j25202868093362_2_alg».proof.Proof.Gen.Pre_finite_inputs
import proofs.«117268_j25202868093362_2_alg».proof.Proof.TilesBits
import proofs.«117268_j25202868093362_2_alg».proof.Proof.RowsIdeal
import proofs.«117268_j25202868093362_2_alg».proof.Proof.RefRows

noncomputable section

namespace Cert.Proof

open Idealize.ShloMosaic Idealize.SL.Sem

/-- The word-level kernel runs and leaves its arguments unchanged. -/
theorem frame_kernel : Cert.frame_Kernel := fun m ρ _ => Cert.Kernel.Tiles.frame m ρ

/-- So does the idealized kernel. -/
theorem frame_ideal : Cert.frame_KernelIdeal := fun m ρ _ => Cert.KernelIdeal.Tiles.frame m ρ

/-- The reference's frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at the specification's function
    of the arguments. -/
theorem algebraic : Cert.algebraic_KernelIdeal_ReferenceIdeal := by
  intro m ρ m' ρ' _ hagree
  refine ⟨fun c => Cert.KernelIdeal.Rows.Gk m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Rows.ref_eq_G]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_ideal, frame_ref, trivial, algebraic⟩

end Cert.Proof

end
